-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S65536x256 : Shape := ⟨2, ![65536, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_

variable [Facts]

def fn {F : FTy → Type} [FloatOps F] (main_arg0 : FVec F S512x256 .f32) (main_arg1 : FVec F S512x256 .f32) (main_arg2 : FVec F S65536x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  main_v13
-- ==== Kernel.lean ====
abbrev S512x256 : Shape := ⟨2, ![512, 256]⟩
abbrev S65536x256 : Shape := ⟨2, ![65536, 256]⟩
abbrev S2x512x256 : Shape := ⟨3, ![2, 512, 256]⟩
abbrev S2x512x1 : Shape := ⟨3, ![2, 512, 1]⟩
abbrev S2048x256 : Shape := ⟨2, ![2048, 256]⟩
abbrev S1x512x256 : Shape := ⟨3, ![1, 512, 256]⟩
abbrev S1x512x1 : Shape := ⟨3, ![1, 512, 1]⟩
abbrev S512x1 : Shape := ⟨2, ![512, 1]⟩
abbrev S512x2048 : Shape := ⟨2, ![512, 2048]⟩
abbrev S8x256 : Shape := ⟨2, ![8, 256]⟩
abbrev S8x2048 : Shape := ⟨2, ![8, 2048]⟩
abbrev S1x2048 : Shape := ⟨2, ![1, 2048]⟩
abbrev S512 : Shape := ⟨1, ![512]⟩
abbrev S_ : Shape := ⟨0, ![]⟩

abbrev nBuf : Space → Nat
  | .hbm => 39
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S65536x256, .f32⟩
  | .hbm, ⟨3, _⟩ => ⟨S2x512x256, .f32⟩
  | .hbm, ⟨4, _⟩ => ⟨S2x512x1, .f32⟩
  | .hbm, ⟨5, _⟩ => ⟨S2x512x1, .f32⟩
  | .hbm, ⟨6, _⟩ => ⟨S1x512x1, .f32⟩
  | .hbm, ⟨7, _⟩ => ⟨S512x1, .f32⟩
  | .hbm, ⟨8, _⟩ => ⟨S1x512x1, .f32⟩
  | .hbm, ⟨9, _⟩ => ⟨S512x1, .f32⟩
  | .hbm, ⟨10, _⟩ => ⟨S1x512x1, .f32⟩
  | .hbm, ⟨11, _⟩ => ⟨S512x1, .f32⟩
  | .hbm, ⟨12, _⟩ => ⟨S1x512x1, .f32⟩
  | .hbm, ⟨13, _⟩ => ⟨S512x1, .f32⟩
  | .hbm, ⟨14, _⟩ => ⟨S1x512x256, .f32⟩
  | .hbm, ⟨15, _⟩ => ⟨S512x256, .f32⟩
  | .hbm, ⟨16, _⟩ => ⟨S1x512x256, .f32⟩
  | .hbm, ⟨17, _⟩ => ⟨S512x256, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S512x256, .f32⟩
  | .local _ .vmem, ⟨0, _⟩ => ⟨S512x256, .f32⟩
  | .local _ .vmem, ⟨1, _⟩ => ⟨S2048x256, .f32⟩
  | .local _ .vmem, ⟨2, _⟩ => ⟨S2048x256, .f32⟩
  | .local _ .vmem, ⟨3, _⟩ => ⟨S1x512x256, .f32⟩
  | .local _ .vmem, ⟨4, _⟩ => ⟨S1x512x1, .f32⟩
  | .local _ .vmem, ⟨5, _⟩ => ⟨S1x512x1, .f32⟩
  | .local _ .vmem, ⟨6, _⟩ => ⟨S512x256, .f32⟩
  | .local _ .vmem, ⟨7, _⟩ => ⟨S512x1, .f32⟩
  | .local _ .vmem, ⟨8, _⟩ => ⟨S512x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_23 : BitVec 32 := 0#32
  let v49 : BitVec 1 := Scalar.cmpi .ne v48 c0_i32_23
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  slices_S8x2048_o0_0_S1x2048 : S8x2048.Slices ![0, 0] S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  broadcasts_S512x1_S512x256 : S512x1.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  slices_S2x512x256_S1x512x256_0_0_0 : S2x512x256.Slices ![0, 0, 0] S1x512x256
  slices_S2x512x256_S1x512x256_1_0_0 : S2x512x256.Slices ![1, 0, 0] S1x512x256
  bcast_S512x1_S512x256_0_1 : S512x1.BroadcastsInDim S512x256 (![0, 1] : Fin 2 → Fin S512x256.rank)
  bcast_S_S512x256 : S_.BroadcastsInDim S512x256 (![] : Fin 0 → Fin S512x256.rank)
  dot_S512x256_S2048x256_S512x2048_1_1_0_0_n_n_wf : DotDims.WF S512x256 S2048x256 S512x2048 [1] [1] [0] [0] [] []
  dot_S8x256_S2048x256_S8x2048_1_1_0_0_n_n_wf : DotDims.WF S8x256 S2048x256 S8x2048 [1] [1] [0] [0] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S2x512x256.size a
  hwx0_2 : ∀ i : grid0.Coords, EltTy.bits .f32 = 32 ∨ (Rect.block (s := S2x512x256) S1x512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S8x256_S2048x256_S8x2048_1_1_0_0_n_n : DotDims S8x256 S2048x256 S8x2048 where
  lhsContracting := [1]
  rhsContracting := [1]
  lhsNonContracting := [0]
  rhsNonContracting := [0]
  lhsBatch := []
  rhsBatch := []
  wf := dot_S8x256_S2048x256_S8x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x512x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x256 : Shape := ⟨2, ![512, 256]⟩
abbrev S65536x256 : Shape := ⟨2, ![65536, 256]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩
abbrev S65536x512 : Shape := ⟨2, ![65536, 512]⟩

abbrev nBuf : Space → Nat
  | .hbm => 43
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S65536x256, .f32⟩
  | .hbm, ⟨3, _⟩ => ⟨S65536x256, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S512x256, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S65536x512, .f32⟩
  | .hbm, ⟨12, _⟩ => ⟨S_, .f32⟩
  | .hbm, ⟨13, _⟩ => ⟨S65536x512, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536x512, .f32⟩
  | .hbm, ⟨21, _⟩ => ⟨S65536x512, .f32⟩
  | .hbm, ⟨22, _⟩ => ⟨S_, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S65536x512, .f32⟩
  | .hbm, ⟨35, _⟩ => ⟨S65536x512, .f32⟩
  | .hbm, ⟨36, _⟩ => ⟨S512x256, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S512x256_S512_d1 : S512x256.ReducesTo [1] S512
  bcast_S512_S1x512_1 : S512.BroadcastsInDim S1x512 (![1] : Fin 1 → Fin S1x512.rank)
  bcast_S_S65536x512 : S_.BroadcastsInDim S65536x512 (![] : Fin 0 → Fin S65536x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  reducesTo_S65536x512_S512_d0 : S65536x512.ReducesTo [0] S512
  bcast_S_S512 : S_.BroadcastsInDim S512 (![] : Fin 0 → Fin S512.rank)
  bcast_S_S512x256 : S_.BroadcastsInDim S512x256 (![] : Fin 0 → Fin S512x256.rank)
  dot_S65536x256_S512x256_S65536x512_1_1_0_0_n_n_wf : DotDims.WF S65536x256 S512x256 S65536x512 [1] [1] [0] [0] [] []
  dot_S65536x512_S65536x256_S512x256_0_0_1_1_n_n_wf : DotDims.WF S65536x512 S65536x256 S512x256 [0] [0] [1] [1] [] []

variable [Facts₀]

def dot_S65536x256_S512x256_S65536x512_1_1_0_0_n_n : DotDims S65536x256 S512x256 S65536x512 where
  lhsContracting := [1]
  rhsContracting := [1]
  lhsNonContracting := [0]
  rhsNonContracting := [0]
  lhsBatch := []
  rhsBatch := []
  wf := dot_S65536x256_S512x256_S65536x512_1_1_0_0_n_n_wf
def dot_S65536x512_S65536x256_S512x256_0_0_1_1_n_n : DotDims S65536x512 S65536x256 S512x256 where
  lhsContracting := [0]
  rhsContracting := [0]
  lhsNonContracting := [1]
  rhsNonContracting := [1]
  lhsBatch := []
  rhsBatch := []
  wf := dot_S65536x512_S65536x256_S512x256_0_0_1_1_n_n_wf

class Facts : Prop extends Facts₀ where

variable [Facts]
-- ==== Proof.Spec.lean ====
/-
  Retrieval from a memory bank by a softmax over negative half squared distances.

  For queries v (B rows of D reals) and a memory bank mem (N rows of D reals), the logit of memory row r for
  query b is, up to a term that depends on b only,   score b r = ⟨v_b, mem_r⟩ − ½‖mem_r‖².
  The retrieved vector is the softmax-weighted mean of the memory rows,
      retrieved b d = (Σ_r exp(score b r) · mem r d) / (Σ_r exp(score b r)),
  a ratio that no common positive factor of the weights changes: subtracting any reference value from every logit
  of a query, or adding the query's own −½‖v_b‖², leaves it as it is.

  The file also names, as formulas on the extended reals, the two ways the ratio is accumulated tile by tile:
  one step of the running softmax over a tile of T memory rows (a running reference value m, the running sum l of
  the weights and the running weighted sum acc, each rescaled by exp(m_old − m_new)), and the merge of two such
  partial states; and the invariant such a partial state satisfies.
-/
import Idealize.ShloMosaic.PureOps.Ideal
import Idealize.ShloMosaic.Lib.ValueIdx

noncomputable section

namespace Cert.Mhn

open Idealize.ShloMosaic Idealize.ShloMosaic.ValueIdx
open scoped BigOperators

/-! ## The real-valued specification -/

section Real

variable {B D N : ℕ}

/-- The logit of memory row `r` for query `b`, without the query's own squared norm. -/
def score (v : Fin B → Fin D → ℝ) (mem : Fin N → Fin D → ℝ) (b : Fin B) (r : Fin N) : ℝ :=
  (∑ k, v b k * mem r k) - (1 / 2) * ∑ k, mem r k * mem r k

/-- The softmax-weighted mean of the memory rows. -/
def retrieved (v : Fin B → Fin D → ℝ) (mem : Fin N → Fin D → ℝ) (b : Fin B) (d : Fin D) : ℝ :=
  (∑ r, Real.exp (score v mem b r) * mem r d) / (∑ r, Real.exp (score v mem b r))

end Real

/-! ## The specification on arrays of extended reals -/

/-- The real entries of a matrix of extended reals (the entry's real part; on a finite entry, the entry). -/
def realPart {R C : ℕ} (x : (⟨2, ![R, C]⟩ : Shape).Idx → EReal) : Fin R → Fin C → ℝ :=
  fun p q => (x (ix2 p q)).toReal

/-- A matrix all of whose entries are real numbers is its real part. -/
theorem coe_realPart {R C : ℕ} (x : (⟨2, ![R, C]⟩ : Shape).Idx → EReal) (hx : ∀ i, ∃ a : ℝ, x i = (a : EReal))
    (p : Fin R) (q : Fin C) : ((realPart x p q : ℝ) : EReal) = x (ix2 p q) := by
  obtain ⟨a, ha⟩ := hx (ix2 p q)
  unfold realPart
  rw [ha, EReal.toReal_coe]

/-- The retrieved vectors of the queries `v` from the memory bank `mem`, as an array. -/
def retrievedArr (v : (⟨2, ![512, 256]⟩ : Shape).Idx → EReal) (mem : (⟨2, ![65536, 256]⟩ : Shape).Idx → EReal) :
    (⟨2, ![512, 256]⟩ : Shape).Idx → EReal :=
  fun i => ((retrieved (realPart v) (realPart mem) (i 0) (i 1) : ℝ) : EReal)

theorem retrievedArr_apply (v : (⟨2, ![512, 256]⟩ : Shape).Idx → EReal) (mem : (⟨2, ![65536, 256]⟩ : Shape).Idx → EReal)
    (b : Fin 512) (d : Fin 256) :
    retrievedArr v mem (ix2 b d) = ((retrieved (realPart v) (realPart mem) b d : ℝ) : EReal) := rfl

/-- What both programs do with the retrieved vectors `X`: move each query half of the way towards its retrieved
    vector, entry by entry under the mask:  v + (½ · (X − v)) · mask. -/
def blend (h : (⟨0, ![]⟩ : Shape).BroadcastsInDim ⟨2, ![512, 256]⟩ (![] : Fin 0 → Fin 2))
    (X v mask : FVec Ideal ⟨2, ![512, 256]⟩ .f32) : FVec Ideal ⟨2, ![512, 256]⟩ .f32 :=
  addf v (mulf (mulf (broadcastInDim ⟨2, ![512, 256]⟩ ![] h (constant (F := Ideal) ⟨0, ![]⟩ .f32 0x3F000000#32)) (subf X v)) mask)

/-- The whole result. -/
def result (h : (⟨0, ![]⟩ : Shape).BroadcastsInDim ⟨2, ![512, 256]⟩ (![] : Fin 0 → Fin 2))
    (v mask : FVec Ideal ⟨2, ![512, 256]⟩ .f32) (mem : FVec Ideal ⟨2, ![65536, 256]⟩ .f32) :
    FVec Ideal ⟨2, ![512, 256]⟩ .f32 :=
  blend h (retrievedArr v mem) v mask

/-! ## One tile of the running softmax, as formulas on the extended reals -/

section Tile

variable {B T D : ℕ}

/-- The tile's logits as they are formed: 1 · ⟨v_b, mem_r⟩ − ½ · Σ_k 1 · (mem_r k · mem_r k). -/
def tileScore (v : Fin B → Fin D → EReal) (mt : Fin T → Fin D → EReal) (b : Fin B) (r : Fin T) : EReal :=
  1 * (∑ k, v b k * mt r k) - ((1 / 2 : ℝ) : EReal) * (∑ k, (1 : EReal) * (mt r k * mt r k))

/-- The new reference value: the larger of the old one and the tile's largest logit. -/
def tileMax (m : Fin B → EReal) (v : Fin B → Fin D → EReal) (mt : Fin T → Fin D → EReal) (b : Fin B) : EReal :=
  max (m b) ((Finset.univ : Finset (Fin T)).fold max ⊥ (fun r => tileScore v mt b r))

/-- The factor that moves the old sums to the new reference value. -/
def tileScale (m : Fin B → EReal) (v : Fin B → Fin D → EReal) (mt : Fin T → Fin D → EReal) (b : Fin B) : EReal :=
  Ideal.exp (m b - tileMax m v mt b)

/-- The tile's weights at the new reference value. -/
def tileWeight (m : Fin B → EReal) (v : Fin B → Fin D → EReal) (mt : Fin T → Fin D → EReal) (b : Fin B) (r : Fin T) : EReal :=
  Ideal.exp (tileScore v mt b r - tileMax m v mt b)

/-- The new running sum of the weights. -/
def tileSum (l m : Fin B → EReal) (v : Fin B → Fin D → EReal) (mt : Fin T → Fin D → EReal) (b : Fin B) : EReal :=
  tileScale m v mt b * l b + ∑ r, tileWeight m v mt b r

/-- The new running weighted sum of the memory rows. -/
def tileAcc (acc : Fin B → Fin D → EReal) (m : Fin B → EReal) (v : Fin B → Fin D → EReal) (mt : Fin T → Fin D → EReal)
    (b : Fin B) (d : Fin D) : EReal :=
  tileScale m v mt b * acc b d + ∑ r, tileWeight m v mt b r * mt r d

/-- The merge of two partial states and the final quotient. -/
def merged (acc0 acc1 : Fin B → Fin D → EReal) (m0 m1 l0 l1 : Fin B → EReal) (b : Fin B) (d : Fin D) : EReal :=
  Ideal.div
    (Ideal.exp (m0 b - max (m0 b) (m1 b)) * acc0 b d + Ideal.exp (m1 b - max (m0 b) (m1 b)) * acc1 b d)
    (Ideal.exp (m0 b - max (m0 b) (m1 b)) * l0 b + Ideal.exp (m1 b - max (m0 b) (m1 b)) * l1 b)

/-- The partial state over the tiles `lo ≤ u < hi`: the reference value is a real number `μ b`, the running sum is
    Σ exp(score − μ b) over the rows of those tiles and the running weighted sum Σ exp(score − μ b) · mem r d. -/
def Partial (vR : Fin B → Fin D → ℝ) (tile : ℕ → Fin T → Fin D → ℝ) (lo hi : ℕ)
    (m l : Fin B → EReal) (acc : Fin B → Fin D → EReal) : Prop :=
  ∃ μ : Fin B → ℝ, (∀ b, m b = (μ b : EReal))
    ∧ (∀ b, l b = ((∑ u ∈ Finset.Ico lo hi, ∑ r, Real.exp (score vR (tile u) b r - μ b) : ℝ) : EReal))
    ∧ (∀ b d, acc b d = ((∑ u ∈ Finset.Ico lo hi, ∑ r, Real.exp (score vR (tile u) b r - μ b) * tile u r d : ℝ) : EReal))

end Tile

end Cert.Mhn

end
-- ==== Proof.Consts.lean ====
/-
  The float literals of the two programs as the extended reals they denote: one, one half, minus one half, two,
  and minus infinity (zero and one are the library's).
-/
import Idealize.ShloMosaic.PureOps.Ideal
import Idealize.ShloMosaic.PureOps.Ideal.Laws
import Idealize.ShloMosaic.Lib.IdealHost

noncomputable section

namespace Cert.Mhn.Consts

open Idealize.ShloMosaic

/-- `0.5` denotes the real one half. -/
theorem ofBits_half : Ideal.ofBits .f32 0x3F000000#32 = ((1 / 2 : ℝ) : EReal) := by
  simp [Ideal.ofBits, Ideal.ieee, -EReal.coe_mul]; norm_num

/-- `-0.5` denotes the real minus one half. -/
theorem ofBits_neg_half : Ideal.ofBits .f32 0xBF000000#32 = ((-(1 / 2) : ℝ) : EReal) := by
  simp [Ideal.ofBits, Ideal.ieee, -EReal.coe_mul, -EReal.coe_neg]; norm_num

/-- `2.0` denotes the real two. -/
theorem ofBits_two : Ideal.ofBits .f32 0x40000000#32 = ((2 : ℝ) : EReal) := by
  simp [Ideal.ofBits, Ideal.ieee, -EReal.coe_mul]; norm_num

/-- The pattern of minus infinity denotes the bottom of the extended reals. -/
theorem ofBits_neg_inf : Ideal.ofBits .f32 0xFF800000#32 = ⊥ := by
  simp [Ideal.ofBits, Ideal.ieee]

end Cert.Mhn.Consts

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibRowOps.lean ====
/-
  Row statistics of a matrix, read at an entry, on the extended reals.

  For an R×D matrix `P`: the sum along each row (a lane reduction with `add`) at row `p` is  Σ_k P(p,k); the
  maximum along each row at row `p` is the fold of `max` over  k ↦ P(p,k)  from the starting value; the same for a
  host-side maximum over the columns. The pointwise square root, exponential and logarithm read at an entry.
-/
import proofs.«126192_j2147483648713_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx Cert.LibColumn

variable {R D : ℕ}

/-- Inserting the column coordinate `k` into the row index `p` gives the entry `(p, k)`. -/
theorem lift_ix1 (h : (⟨2, ![R, D]⟩ : Shape).Reduces [1] ⟨1, ![R]⟩) (p : Fin R) (k : Fin D) :
    h.lift (ix1 p) k = ix2 p k := by
  funext c
  apply Fin.ext
  show h.liftVal (ix1 p) k.val c = _
  unfold Shape.Reduces.liftVal
  match c with
  | ⟨0, _⟩ => simp
  | ⟨1, _⟩ => simp

/-- A row sum at row `p` is the sum of the row's entries. -/
theorem rowSum_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ) (p : Fin R) :
    multiReduction .add [1] ⟨1, ![R]⟩ src acc h hφ hacc (ix1 p) = ∑ k : Fin D, src (ix2 p k) := by
  rw [Ideal.multiReduction_add_single]
  exact Finset.sum_congr rfl fun k _ => congrArg src (lift_ix1 h p k)

/-- A row maximum at row `p` is the fold of `max` over the row's entries, from the starting value. -/
theorem rowMax_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ) (p : Fin R) :
    multiReduction .maximumf [1] ⟨1, ![R]⟩ src acc h hφ hacc (ix1 p)
      = (Finset.univ : Finset (Fin D)).fold max (Ideal.ofBits φ acc) (fun k => src (ix2 p k)) := by
  rw [Ideal.multiReduction_maximumf_single]
  exact congrArg (Finset.fold max _ · _) (funext fun k => congrArg src (lift_ix1 h p k))

/-- A host-side row maximum (a one-operand reduce with `max` over the columns) at row `p`: the fold of `max` over the
    row's entries from the initial value. -/
theorem hostRowMax (U : FVec Ideal ⟨2, ![R, D]⟩ .f32) {u : Shape} (init : u.Idx → Ideal .f32)
    (h' : (⟨2, ![R, D]⟩ : Shape).ReducesTo [1] ⟨1, ![R]⟩) (h : (⟨2, ![R, D]⟩ : Shape).Reduces [1] ⟨1, ![R]⟩) (hu : 0 < u.numel) (p : Fin R) :
    Host.reduce (FloatOps.maximumf (F := Ideal) (φ := .f32)) U init h' hu (ix1 p)
      = (Finset.univ : Finset (Fin D)).fold max (init (Shape.Idx.first hu)) (fun k => U (ix2 p k)) := by
  rw [Host.reduce_eq_fold_single _ _ _ _ h]
  exact congrArg (Finset.fold max _ · _) (funext fun k => congrArg U (lift_ix1 h p k))

/-- The pointwise square root, exponential and logarithm read at an entry. -/
theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

end Cert.LibRowOps

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibDotT.lean ====
/-
  A matrix product contracted over the LAST axis of both operands, over the extended reals, read at one entry.

  For an M×K matrix `l` and an N×K matrix `r` the product contracted over the columns of both (l · rᵀ) has, at
  entry (p, q), the value ∑ₖ l(p,k)·r(q,k). This holds for the vector unit's product into a zero accumulator and for
  the host's `dot_general` alike; the only work is to identify the contraction's one-axis index type with `Fin K`
  and the operand indices with (p,k) and (q,k).
-/
import Idealize.ShloMosaic.PureOps.Ideal.Laws
import Idealize.ShloMosaic.Lib.ValueIdx

noncomputable section

namespace Cert.LibDotT

open Idealize.ShloMosaic Idealize.ShloMosaic.ValueIdx
open scoped BigOperators

variable {M K N : ℕ} {φ₁ φ₂ : FTy}

/-- The sum over the contraction index of an M×K by N×K product contracted over both last axes is the sum over
    `k : Fin K` of the left operand at (row, k) times the right operand at (column, k). -/
theorem transposed_sum (l : FVec Ideal ⟨2, ![M, K]⟩ φ₁) (r : FVec Ideal ⟨2, ![N, K]⟩ φ₂) (p : Fin M) (q : Fin N) :
    (∑ c : (DotDims.transposedRhs M K N).contr.Idx,
        l ((DotDims.transposedRhs M K N).lhsIdx (ix2 p q) c) * r ((DotDims.transposedRhs M K N).rhsIdx (ix2 p q) c))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl (ix2 p q) _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => rfl
      | ⟨1, _⟩ => exact ((DotDims.transposedRhs M K N).rhsIdx_val_of_single rfl (ix2 p q) _).trans hk)
  rw [el, er]

/-- The vector unit's product into the zero accumulator, for any dimension record that is this one. -/
theorem matmul_zero_apply (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ k : Fin K, l (ix2 p k) * r (ix2 q k) := by
  subst hd
  exact (Ideal.matmul_constant_zero_apply _ prec l r (ix2 p q)).trans (transposed_sum l r p q)

/-- The host's `dot_general`, for any dimension record that is this one. -/
theorem dotGeneral_apply (d : DotDims ⟨2, ![M, K]⟩ ⟨2, ![N, K]⟩ ⟨2, ![M, N]⟩) (hd : d = DotDims.transposedRhs M K N)
    (prec : Option ContractPrecision) (sched : HostSchedule) (l : FVec Ideal ⟨2, ![M, K]⟩ φ₁) (r : FVec Ideal ⟨2, ![N, K]⟩ φ₂)
    (p : Fin M) (q : Fin N) :
    FloatOps.dotGeneral d prec sched l r (ix2 p q) = ∑ k : Fin K, l (ix2 p k) * r (ix2 q k) := by
  subst hd
  exact (Ideal.dotGeneral_apply _ prec sched l r (ix2 p q)).trans (transposed_sum l r p q)

end Cert.LibDotT

end
-- ==== Proof.KernelPay.lean ====
/-
  The body's arithmetic, read at one entry, over the extended reals.

  For a block x0 of queries (512×256), a tile x1 of memory rows (2048×256) and the old running quantities — the
  reference value ms (512×1), the weight sum ls (512×1), the weighted sum acc0 (512×256) — each stored value of the body
  is, entry by entry, the corresponding formula of one tile of the running softmax (the specification's tileScore,
  tileMax, tileScale, tileWeight, tileSum, tileAcc): the two products contracted over the feature axis are plain sums
  over the 256 features, the product with a block of ones is the row's sum of squares, the lane reductions are the fold
  of max from −∞ and the sum over the tile's 2048 rows, a keep-dims column spread over the columns reads the column's
  entry, and a change of float format is the identity.
-/
import proofs.«126192_j2147483648713_2_alg».proof.Proof.Gen.KernelIdeal.Skeleton
import proofs.«126192_j2147483648713_2_alg».proof.Proof.Spec
import proofs.«126192_j2147483648713_2_alg».proof.Proof.Consts
import proofs.«126192_j2147483648713_2_alg».proof.Proof.LibRowOps
import proofs.«126192_j2147483648713_2_alg».proof.Proof.LibColumn
import proofs.«126192_j2147483648713_2_alg».proof.Proof.LibPlainDot
import proofs.«126192_j2147483648713_2_alg».proof.Proof.LibDotT
import Idealize.ShloMosaic.Lib.Pipeline.Value
import Idealize.ShloMosaic.Lib.ValueIdx
import Idealize.ShloMosaic.Lib.ValueLayout
import Idealize.ShloMosaic.Lib.IdealHost

noncomputable section

open Idealize.ShloMosaic Idealize.ShloMosaic.ValueIdx
open scoped BigOperators

namespace Cert.Mhn

/-- A rank-2 array as a function of its row and column. -/
abbrev mat {R C : ℕ} (x : (⟨2, ![R, C]⟩ : Shape).Idx → EReal) : Fin R → Fin C → EReal := fun p q => x (ix2 p q)
/-- A one-column array as a function of its row. -/
abbrev col {R : ℕ} (x : (⟨2, ![R, 1]⟩ : Shape).Idx → EReal) : Fin R → EReal := fun p => x (ix2 p (0 : Fin 1))

end Cert.Mhn

namespace Cert.KernelIdeal.Pay

open Cert.KernelIdeal Cert.KernelIdeal.Gen Cert.Mhn Cert.LibColumn Cert.LibRowOps

theorem pay10_apply (x0 : Vec Ideal S512x256 .f32) (x1 : Vec Ideal S2048x256 .f32) (b : Fin 512) (r : Fin 2048) :
    k0_pay10 x0 x1 (ix2 b r) = tileScore (mat x0) (mat x1) b r := by
  unfold k0_pay10 k0_pay9 tileScore
  dsimp only
  rw [subf_apply, mulf_apply, broadcast_apply, broadcastTo_1b_ab_apply, mulf_apply, broadcast_apply]
  rw [slice2_axis0_apply 0 _ _ (0 : Fin 1) r (0 : Fin 8) rfl]
  simp only [matmul]
  rw [Cert.LibDotT.matmul_zero_apply dot_S512x256_S2048x256_S512x2048_1_1_0_0_n_n rfl, Cert.LibDotT.matmul_zero_apply dot_S8x256_S2048x256_S8x2048_1_1_0_0_n_n rfl]
  simp only [truncf_apply, mulf_apply, broadcast_apply, Ideal.ofBits_def, Ideal.ofBits_one_f32, Ideal.ofBits_one_bf16, Cert.Mhn.Consts.ofBits_half]

theorem pay11_apply (x0 : Vec Ideal S512x256 .f32) (x1 : Vec Ideal S2048x256 .f32) (ms : Vec Ideal S512x1 .f32) (b : Fin 512) :
    k0_pay11 x0 x1 ms (ix2 b (0 : Fin 1)) = tileMax (col ms) (mat x0) (mat x1) b := by
  unfold k0_pay11 tileMax
  dsimp only
  rw [maximumf_apply, shapeCast_a_a1_apply]
  refine congrArg (max _) ((rowMax_apply (k0_pay10 x0 x1) 0xFF800000#32 reduces_S512x2048_S512 (.inl rfl) rfl b).trans ?_)
  rw [Cert.Mhn.Consts.ofBits_neg_inf]
  exact congrArg (Finset.fold max ⊥ · _) (funext fun r => pay10_apply x0 x1 b r)

theorem pay12_apply (x0 : Vec Ideal S512x256 .f32) (x1 : Vec Ideal S2048x256 .f32) (ms : Vec Ideal S512x1 .f32) (b : Fin 512) :
    k0_pay12 x0 x1 ms (ix2 b (0 : Fin 1)) = tileScale (col ms) (mat x0) (mat x1) b := by
  unfold k0_pay12 tileScale
  rw [exp_apply, subf_apply, pay11_apply]

theorem pay13_apply (x0 : Vec Ideal S512x256 .f32) (x1 : Vec Ideal S2048x256 .f32) (ms : Vec Ideal S512x1 .f32) (b : Fin 512) (r : Fin 2048) :
    k0_pay13 x0 x1 ms (ix2 b r) = tileWeight (col ms) (mat x0) (mat x1) b r := by
  unfold k0_pay13 tileWeight
  rw [exp_apply, subf_apply, broadcastTo_a1_ab_apply, pay10_apply, pay11_apply]

theorem pay14_apply (x0 : Vec Ideal S512x256 .f32) (x1 : Vec Ideal S2048x256 .f32) (ms ls : Vec Ideal S512x1 .f32) (b : Fin 512) :
    k0_pay14 x0 x1 ms ls (ix2 b (0 : Fin 1)) = tileSum (col ls) (col ms) (mat x0) (mat x1) b := by
  unfold k0_pay14 tileSum
  dsimp only
  rw [shapeCast_self, addf_apply, mulf_apply, pay12_apply, shapeCast_a_a1_apply]
  refine congrArg (_ + ·) ((rowSum_apply (k0_pay13 x0 x1 ms) 0x00000000#32 reduces_S512x2048_S512 (.inl rfl) rfl b).trans ?_)
  exact Finset.sum_congr rfl fun r _ => pay13_apply x0 x1 ms b r

theorem pay1_apply (x0 : Vec Ideal S512x256 .f32) (x1 : Vec Ideal S2048x256 .f32) (ms : Vec Ideal S512x1 .f32)
    (acc0 : Vec Ideal S512x256 .f32) (b : Fin 512) (d : Fin 256) :
    k0_pay1 (k0_pay9 x1) (k0_pay12 x0 x1 ms) (k0_pay15 x0 x1 ms) (constant S512x256 .f32 0x00000000#32) acc0 (ix2 b d)
      = tileAcc (mat acc0) (col ms) (mat x0) (mat x1) b d := by
  unfold k0_pay1 k0_pay9 k0_pay15 tileAcc
  dsimp only
  rw [shapeCast_self, addf_apply, mulf_apply, broadcastTo_a1_ab_apply, pay12_apply]
  simp only [matmul]
  rw [Cert.LibPlainDot.matmul_zero_apply dot_S512x2048_S2048x256_S512x256_1_0_0_1_n_n rfl]
  refine congrArg (_ + ·) (Finset.sum_congr rfl fun r _ => ?_)
  rw [truncf_apply, truncf_apply, pay13_apply]

theorem pay2_eq (v : FVec Ideal S512x1 .f32) : k0_pay2 v = v := by
  unfold k0_pay2
  exact shapeCast_self _ _

theorem pay3_apply (v : Vec Ideal S512x256 .f32) (u : Fin 1) (b : Fin 512) (d : Fin 256) :
    k0_pay3 v (ix3 u b d) = v (ix2 b d) := by
  unfold k0_pay3
  exact shapeCast_ab_1ab_apply v _ u b d

theorem pay4_apply (v : Vec Ideal S512x1 .f32) (u : Fin 1) (b : Fin 512) (z : Fin 1) :
    k0_pay4 v (ix3 u b z) = v (ix2 b z) := by
  unfold k0_pay4
  exact shapeCast_ab_1ab_apply v _ u b z

theorem pay5_apply (v : Vec Ideal S512x1 .f32) (u : Fin 1) (b : Fin 512) (z : Fin 1) :
    k0_pay5 v (ix3 u b z) = v (ix2 b z) := by
  unfold k0_pay5
  exact shapeCast_ab_1ab_apply v _ u b z

theorem pay6_apply (i : S512x256.Idx) : k0_pay6 (F := Ideal) i = 0 := by
  unfold k0_pay6
  rw [shapeCast_self, broadcast_apply]
  exact Ideal.ofBits_zero_f32

theorem pay7_apply (i : S512x1.Idx) : k0_pay7 (F := Ideal) i = ⊥ := by
  unfold k0_pay7
  rw [shapeCast_self, broadcast_apply]
  exact Cert.Mhn.Consts.ofBits_neg_inf

theorem pay8_apply (i : S512x1.Idx) : k0_pay8 (F := Ideal) i = 0 := by
  unfold k0_pay8
  rw [shapeCast_self, broadcast_apply]
  exact Ideal.ofBits_zero_f32

end Cert.KernelIdeal.Pay
end
-- ==== Proof.KernelPieces.lean ====
/-
  What one grid point of the kernel leaves behind, case by case, as the body's own arithmetic.

  The body keeps three running quantities in scratch between grid points: the weighted sum of memory rows
  (512×256), the reference value (512×1) and the sum of the weights (512×1). At the first point of a core's sweep
  (case A) the three are first reset to 0, −∞ and 0 and then updated from those; at the other points (cases B and C)
  they are updated from what the point before left. The update of each is one whole-buffer store whose value is a
  pure function of the point's two input blocks and the old contents; at the last point of the sweep (case C) the
  three are also copied, reshaped with a leading unit axis, into the three output blocks.
  Each lemma reads the whole-buffer store back: the buffer then holds exactly the stored value.
-/
import proofs.«126192_j2147483648713_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_B_0 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x256 .f32) (x1 : Vec F S2048x256 .f32) (xs0 : Vec F S512x256 .f32) (xs1 : Vec F S512x1 .f32) (xs2 : Vec F S512x1 .f32) :
    sout0_B_0 c i arg2 harg2 arg3 harg3 arg4 harg4 arg5 harg5 arg6 harg6 arg7 harg7 arg8 harg8 arg9 harg9 hc0 hc1 x0 x1 xs0 xs1 xs2 = k0_pay1 (k0_pay9 x1) (k0_pay12 x0 x1 xs1) (k0_pay15 x0 x1 xs1) (constant S512x256 .f32 0x00000000#32) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem sout_B_1 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x256 .f32) (x1 : Vec F S2048x256 .f32) (xs0 : Vec F S512x256 .f32) (xs1 : Vec F S512x1 .f32) (xs2 : Vec F S512x1 .f32) :
    sout0_B_1 c i arg2 harg2 arg3 harg3 arg4 harg4 arg5 harg5 arg6 harg6 arg7 harg7 arg8 harg8 arg9 harg9 hc0 hc1 x0 x1 xs0 xs1 xs2 = k0_pay2 (k0_pay11 x0 x1 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem sout_B_2 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x256 .f32) (x1 : Vec F S2048x256 .f32) (xs0 : Vec F S512x256 .f32) (xs1 : Vec F S512x1 .f32) (xs2 : Vec F S512x1 .f32) :
    sout0_B_2 c i arg2 harg2 arg3 harg3 arg4 harg4 arg5 harg5 arg6 harg6 arg7 harg7 arg8 harg8 arg9 harg9 hc0 hc1 x0 x1 xs0 xs1 xs2 = k0_pay14 x0 x1 xs1 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem sout_C_0 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x256 .f32) (x1 : Vec F S2048x256 .f32) (xs0 : Vec F S512x256 .f32) (xs1 : Vec F S512x1 .f32) (xs2 : Vec F S512x1 .f32) :
    sout0_C_0 c i arg2 harg2 arg3 harg3 arg4 harg4 arg5 harg5 arg6 harg6 arg7 harg7 arg8 harg8 arg9 harg9 hc0 hc1 x0 x1 xs0 xs1 xs2 = k0_pay1 (k0_pay9 x1) (k0_pay12 x0 x1 xs1) (k0_pay15 x0 x1 xs1) (constant S512x256 .f32 0x00000000#32) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem sout_C_1 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x256 .f32) (x1 : Vec F S2048x256 .f32) (xs0 : Vec F S512x256 .f32) (xs1 : Vec F S512x1 .f32) (xs2 : Vec F S512x1 .f32) :
    sout0_C_1 c i arg2 harg2 arg3 harg3 arg4 harg4 arg5 harg5 arg6 harg6 arg7 harg7 arg8 harg8 arg9 harg9 hc0 hc1 x0 x1 xs0 xs1 xs2 = k0_pay2 (k0_pay11 x0 x1 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem sout_C_2 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x256 .f32) (x1 : Vec F S2048x256 .f32) (xs0 : Vec F S512x256 .f32) (xs1 : Vec F S512x1 .f32) (xs2 : Vec F S512x1 .f32) :
    sout0_C_2 c i arg2 harg2 arg3 harg3 arg4 harg4 arg5 harg5 arg6 harg6 arg7 harg7 arg8 harg8 arg9 harg9 hc0 hc1 x0 x1 xs0 xs1 xs2 = k0_pay14 x0 x1 xs1 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem out_C_2 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x256 .f32) (x1 : Vec F S2048x256 .f32) (xs0 : Vec F S512x256 .f32) (xs1 : Vec F S512x1 .f32) (xs2 : Vec F S512x1 .f32) :
    out0_C_2 c i arg2 harg2 arg3 harg3 arg4 harg4 arg5 harg5 arg6 harg6 arg7 harg7 arg8 harg8 arg9 harg9 hc0 hc1 x0 x1 xs0 xs1 xs2 = k0_pay3 (k0_pay1 (k0_pay9 x1) (k0_pay12 x0 x1 xs1) (k0_pay15 x0 x1 xs1) (constant S512x256 .f32 0x00000000#32) xs0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem out_C_3 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x256 .f32) (x1 : Vec F S2048x256 .f32) (xs0 : Vec F S512x256 .f32) (xs1 : Vec F S512x1 .f32) (xs2 : Vec F S512x1 .f32) :
    out0_C_3 c i arg2 harg2 arg3 harg3 arg4 harg4 arg5 harg5 arg6 harg6 arg7 harg7 arg8 harg8 arg9 harg9 hc0 hc1 x0 x1 xs0 xs1 xs2 = k0_pay4 (k0_pay2 (k0_pay11 x0 x1 xs1)) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem out_C_4 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x256 .f32) (x1 : Vec F S2048x256 .f32) (xs0 : Vec F S512x256 .f32) (xs1 : Vec F S512x1 .f32) (xs2 : Vec F S512x1 .f32) :
    out0_C_4 c i arg2 harg2 arg3 harg3 arg4 harg4 arg5 harg5 arg6 harg6 arg7 harg7 arg8 harg8 arg9 harg9 hc0 hc1 x0 x1 xs0 xs1 xs2 = k0_pay5 (k0_pay14 x0 x1 xs1 xs2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem sout_A_0 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x256 .f32) (x1 : Vec F S2048x256 .f32) :
    sout0_A_0 c i arg2 harg2 arg3 harg3 arg4 harg4 arg5 harg5 arg6 harg6 arg7 harg7 arg8 harg8 arg9 harg9 hc0 hc1 x0 x1 = k0_pay1 (k0_pay9 x1) (k0_pay12 x0 x1 k0_pay7) (k0_pay15 x0 x1 k0_pay7) (constant S512x256 .f32 0x00000000#32) k0_pay6 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x256) hz2]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem sout_A_1 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x256 .f32) (x1 : Vec F S2048x256 .f32) :
    sout0_A_1 c i arg2 harg2 arg3 harg3 arg4 harg4 arg5 harg5 arg6 harg6 arg7 harg7 arg8 harg8 arg9 harg9 hc0 hc1 x0 x1 = k0_pay2 (k0_pay11 x0 x1 k0_pay7) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x1) hz2]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

theorem sout_A_2 (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S1x512x256 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x256 .f32) (x1 : Vec F S2048x256 .f32) :
    sout0_A_2 c i arg2 harg2 arg3 harg3 arg4 harg4 arg5 harg5 arg6 harg6 arg7 harg7 arg8 harg8 arg9 harg9 hc0 hc1 x0 x1 = k0_pay14 x0 x1 k0_pay7 k0_pay8 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S512x1) hz2]
  simp only [View.readAt_eq_ld, harg2.read_unread, harg3.read_unread, harg4.read_unread, harg5.read_unread, harg6.read_unread, harg7.read_unread, harg8.read_unread, harg9.read_unread, View.ld_unit_zero (S := S512x256) hz2, View.ld_unit_zero (S := S2048x256) hz2, View.ld_unit_zero (S := S512x1) hz2, View.ld_unit_zero (S := S1x512x256) hz3, View.ld_unit_zero (S := S1x512x1) hz3, View.readCov_unit_zero (S := S512x256) _ hz2, View.readCov_unit_zero (S := S512x1) _ hz2]

end Cert.KernelIdeal.Pieces
end
-- ==== Proof.RealSums.lean ====
/-
  Finite sums of real numbers inside the extended reals.
-/
import Mathlib

noncomputable section

namespace Cert.RealSums

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.RealSums

end
-- ==== Proof.LibScatterSum.lean ====
/-
  Two general facts for comparing a blocked, dense computation with a gather / scatter-add formulation of the
  same sums. Nothing here mentions a program.

  * Over the extended reals the host's accumulating float scatter is, at each element, the operand's element plus
    the sum of the updates whose result index is that element. When those updates are exactly the image of an
    injective enumeration `g` (for a dense edge list: the edges with a given target, enumerated by their source),
    the sum is a plain sum over the enumeration.
  * A sum over `m * n` consecutive rows is the sum over the `m` blocks of the sums over each block's `n` rows.
-/
import Idealize.ShloMosaic.PureOps.Ideal
import Mathlib.Algebra.BigOperators.Fin
import Mathlib.Logic.Equiv.Fin.Basic

noncomputable section

namespace Cert.Lib.ScatterSum

open Idealize.ShloMosaic

/-- The accumulating scatter at element `i`, when the updates landing on `i` are enumerated without repetition by
    `g`: the operand's element plus the sum of those updates. -/
theorem hostScatterAdd_apply_of_fiber {s si su : Shape} (d : ScatterDims s si su) {w : Nat} (x : s.Idx → EReal)
    (idx : IVec si w) (upd : su.Idx → EReal) (i : s.Idx) {κ : Type*} [Fintype κ] (g : κ → su.Idx)
    (hg : Function.Injective g) (h : ∀ j, d.resultIdx? j idx = some i ↔ ∃ k, g k = j) :
    Ideal.hostScatterAdd d x idx upd i = x i + ∑ k, upd (g k) := by
  classical
  unfold Ideal.hostScatterAdd
  have e : (Finset.univ.filter fun j => d.resultIdx? j idx = some i) = Finset.univ.image g := by
    ext j
    simp only [Finset.mem_filter, Finset.mem_univ, true_and, Finset.mem_image, h]
  have e' : (∑ j ∈ Finset.univ.filter (fun j => d.resultIdx? j idx = some i), upd j) = ∑ k, upd (g k) := by
    rw [← Finset.sum_image (s := Finset.univ) (g := g) (f := upd) (fun a _ b _ hab => hg hab), ← e]
  exact congrArg (x i + ·) e'

/-- Row `i` of block `b` is a row of the whole. -/
theorem block_row_lt {m n b i : ℕ} (hb : b < m) (hi : i < n) : b * n + i < m * n :=
  calc b * n + i < b * n + n := Nat.add_lt_add_left hi _
    _ = (b + 1) * n := by ring
    _ ≤ m * n := Nat.mul_le_mul_right _ hb

/-- A sum over `m * n` rows, block by block. -/
theorem sum_blocks {M : Type*} [AddCommMonoid M] (m n : ℕ) (f : Fin (m * n) → M) :
    ∑ k, f k = ∑ b : Fin m, ∑ i : Fin n, f ⟨b.val * n + i.val, block_row_lt b.isLt i.isLt⟩ := by
  rw [← Equiv.sum_comp finProdFinEquiv f, Fintype.sum_prod_type]
  refine Finset.sum_congr rfl fun b _ => Finset.sum_congr rfl fun i _ => congrArg f (Fin.ext ?_)
  simp only [finProdFinEquiv_apply_val]
  ring

end Cert.Lib.ScatterSum

end
-- ==== Proof.RunningSoftmax.lean ====
/-
  The mathematics of a running softmax over tiles of memory rows, on the extended reals.

  All operands are real numbers, so every quantity that is formed is the coercion of a real number; the one
  exception is the reference value before the first tile, minus infinity, whose factor exp(−∞ − μ) is 0 and
  multiplies sums that are 0 as well.  With real reference values μ (old) and μ' (new) the step is the identity
      exp(μ − μ') · Σ exp(s − μ) + Σ_tile exp(s − μ') = Σ exp(s − μ'),
  and the merge of two partial states followed by the quotient is
      (Σ exp(s − M) · mem) / (Σ exp(s − M)) = (Σ exp(s) · mem) / (Σ exp(s)),
  the common factor exp(−M) cancelling; the double sum over tiles and rows of a tile is the sum over all rows.
-/
import proofs.«126192_j2147483648713_2_alg».proof.Proof.Spec
import proofs.«126192_j2147483648713_2_alg».proof.Proof.RealSums
import proofs.«126192_j2147483648713_2_alg».proof.Proof.LibScatterSum

noncomputable section

namespace Cert.Mhn

open Idealize.ShloMosaic
open scoped BigOperators

variable {B T D N : ℕ}

namespace RunningSoftmax

/-! ## Coercions -/

/-- The coercion of the larger of two real numbers. -/
theorem coe_max_real (x y : ℝ) : ((max x y : ℝ) : EReal) = max (x : EReal) (y : EReal) :=
  EReal.coe_strictMono.monotone.map_max

/-- The fold of max from minus infinity over a nonempty family of real numbers is a real number. -/
theorem fold_max_coe {ι : Type*} (s : Finset ι) (hs : s.Nonempty) (f : ι → ℝ) :
    ∃ ρ : ℝ, s.fold max ⊥ (fun r => (f r : EReal)) = (ρ : EReal) := by
  induction hs using Finset.Nonempty.cons_induction with
  | singleton a => exact ⟨f a, by rw [Finset.fold_singleton, max_bot_right]⟩
  | cons a s ha hs ih =>
    obtain ⟨ρ, hρ⟩ := ih
    exact ⟨max (f a) ρ, by rw [Finset.fold_cons, hρ, coe_max_real]⟩

/-- The logits of a tile of real rows against real queries are the real logits. -/
theorem tileScore_coe (vR : Fin B → Fin D → ℝ) (mt : Fin T → Fin D → ℝ) (b : Fin B) (r : Fin T) :
    tileScore (fun b k => (vR b k : EReal)) (fun r k => (mt r k : EReal)) b r = ((score vR mt b r : ℝ) : EReal) := by
  unfold tileScore score
  simp only [one_mul]
  simp only [← EReal.coe_mul, ← Cert.RealSums.coe_sum, ← EReal.coe_sub]

/-- The new reference value is a real number, whether the old one is minus infinity or a real number. -/
theorem tileMax_real (hT : 0 < T) (vR : Fin B → Fin D → ℝ) (mt : Fin T → Fin D → ℝ) (m : Fin B → EReal) (b : Fin B)
    (hm : m b = ⊥ ∨ ∃ μ : ℝ, m b = (μ : EReal)) :
    ∃ μ' : ℝ, tileMax m (fun b k => (vR b k : EReal)) (fun r k => (mt r k : EReal)) b = (μ' : EReal) := by
  haveI : Nonempty (Fin T) := ⟨⟨0, hT⟩⟩
  obtain ⟨ρ, hρ⟩ := fold_max_coe (Finset.univ : Finset (Fin T)) Finset.univ_nonempty (fun r => score vR mt b r)
  unfold tileMax
  simp only [tileScore_coe]
  rw [hρ]
  rcases hm with hm | ⟨μ, hm⟩
  · exact ⟨ρ, by rw [hm, max_bot_left]⟩
  · exact ⟨max μ ρ, by rw [hm, coe_max_real]⟩

/-- A weight of the tile at a real reference value. -/
theorem tileWeight_coe (vR : Fin B → Fin D → ℝ) (mt : Fin T → Fin D → ℝ) (m : Fin B → EReal) (b : Fin B) {μ' : ℝ}
    (hμ' : tileMax m (fun b k => (vR b k : EReal)) (fun r k => (mt r k : EReal)) b = (μ' : EReal)) (r : Fin T) :
    tileWeight m (fun b k => (vR b k : EReal)) (fun r k => (mt r k : EReal)) b r
      = ((Real.exp (score vR mt b r - μ') : ℝ) : EReal) := by
  unfold tileWeight
  rw [tileScore_coe, hμ', ← EReal.coe_sub, Ideal.exp_coe]

/-- The sum of the weights of the tile. -/
theorem sum_tileWeight_coe (vR : Fin B → Fin D → ℝ) (mt : Fin T → Fin D → ℝ) (m : Fin B → EReal) (b : Fin B) {μ' : ℝ}
    (hμ' : tileMax m (fun b k => (vR b k : EReal)) (fun r k => (mt r k : EReal)) b = (μ' : EReal)) :
    ∑ r, tileWeight m (fun b k => (vR b k : EReal)) (fun r k => (mt r k : EReal)) b r
      = ((∑ r, Real.exp (score vR mt b r - μ') : ℝ) : EReal) := by
  simp only [tileWeight_coe vR mt m b hμ', ← Cert.RealSums.coe_sum]

/-- The weighted sum of the rows of the tile. -/
theorem sum_tileWeight_mul_coe (vR : Fin B → Fin D → ℝ) (mt : Fin T → Fin D → ℝ) (m : Fin B → EReal) (b : Fin B)
    {μ' : ℝ} (hμ' : tileMax m (fun b k => (vR b k : EReal)) (fun r k => (mt r k : EReal)) b = (μ' : EReal))
    (d : Fin D) :
    ∑ r, tileWeight m (fun b k => (vR b k : EReal)) (fun r k => (mt r k : EReal)) b r * (mt r d : EReal)
      = ((∑ r, Real.exp (score vR mt b r - μ') * mt r d : ℝ) : EReal) := by
  simp only [tileWeight_coe vR mt m b hμ', ← EReal.coe_mul, ← Cert.RealSums.coe_sum]

/-- The rescaling factor when both reference values are real numbers. -/
theorem tileScale_coe (vR : Fin B → Fin D → ℝ) (mt : Fin T → Fin D → ℝ) (m : Fin B → EReal) (b : Fin B) {μ μ' : ℝ}
    (hμ : m b = (μ : EReal))
    (hμ' : tileMax m (fun b k => (vR b k : EReal)) (fun r k => (mt r k : EReal)) b = (μ' : EReal)) :
    tileScale m (fun b k => (vR b k : EReal)) (fun r k => (mt r k : EReal)) b = ((Real.exp (μ - μ') : ℝ) : EReal) := by
  unfold tileScale
  rw [hμ, hμ', ← EReal.coe_sub, Ideal.exp_coe]

/-! ## Real sums of exponentials -/

/-- Moving a double sum of weights from the reference value μ to μ'. -/
theorem exp_shift_sum {ι κ : Type*} (s : Finset ι) (t : Finset κ) (g : ι → κ → ℝ) (μ μ' : ℝ) :
    Real.exp (μ - μ') * ∑ u ∈ s, ∑ r ∈ t, Real.exp (g u r - μ) = ∑ u ∈ s, ∑ r ∈ t, Real.exp (g u r - μ') := by
  rw [Finset.mul_sum]
  refine Finset.sum_congr rfl fun u _ => ?_
  rw [Finset.mul_sum]
  refine Finset.sum_congr rfl fun r _ => ?_
  rw [← Real.exp_add]
  congr 1
  ring

/-- Moving a double weighted sum from the reference value μ to μ'. -/
theorem exp_shift_sum_mul {ι κ : Type*} (s : Finset ι) (t : Finset κ) (g w : ι → κ → ℝ) (μ μ' : ℝ) :
    Real.exp (μ - μ') * ∑ u ∈ s, ∑ r ∈ t, Real.exp (g u r - μ) * w u r
      = ∑ u ∈ s, ∑ r ∈ t, Real.exp (g u r - μ') * w u r := by
  rw [Finset.mul_sum]
  refine Finset.sum_congr rfl fun u _ => ?_
  rw [Finset.mul_sum]
  refine Finset.sum_congr rfl fun r _ => ?_
  rw [← mul_assoc, ← Real.exp_add]
  congr 2
  ring

/-! ## Tiles and rows; the quotient -/

/-- The logit of row `r` of tile `u` is the logit of row `u * T + r` of the memory bank. -/
theorem score_tile {n : ℕ} (vR : Fin B → Fin D → ℝ) (memR : Fin N → Fin D → ℝ) (tile : ℕ → Fin T → Fin D → ℝ)
    (htile : ∀ (u : ℕ) (r : Fin T) (k : Fin D) (h : u * T + r.val < N), u < n →
      tile u r k = memR ⟨u * T + r.val, h⟩ k)
    (b : Fin B) (u : ℕ) (r : Fin T) (h : u * T + r.val < N) (hu : u < n) :
    score vR (tile u) b r = score vR memR b ⟨u * T + r.val, h⟩ := by
  unfold score
  simp only [htile u r _ h hu]

/-- A sum over the tiles and the rows of each tile is the sum over all rows. -/
theorem sum_tiles_eq {n : ℕ} (hN : n * T = N) (F : Fin N → ℝ) (G : ℕ → Fin T → ℝ)
    (hG : ∀ (u : ℕ) (r : Fin T) (h : u * T + r.val < N), u < n → G u r = F ⟨u * T + r.val, h⟩) :
    ∑ u ∈ Finset.Ico 0 n, ∑ r, G u r = ∑ i, F i := by
  subst hN
  rw [Cert.Lib.ScatterSum.sum_blocks n T F, Nat.Ico_zero_eq_range, ← Fin.sum_univ_eq_sum_range (fun u => ∑ r, G u r) n]
  exact Finset.sum_congr rfl fun u _ => Finset.sum_congr rfl fun r _ => hG u.val r _ u.isLt

/-- The quotient of the weighted sum by the sum of the weights does not depend on the reference value. -/
theorem quotient_eq_retrieved (hN : 0 < N) (vR : Fin B → Fin D → ℝ) (memR : Fin N → Fin D → ℝ) (b : Fin B) (d : Fin D)
    (M : ℝ) :
    (∑ i, Real.exp (score vR memR b i - M) * memR i d) / (∑ i, Real.exp (score vR memR b i - M))
      = retrieved vR memR b d := by
  have hexp : ∀ i, Real.exp (score vR memR b i - M) = Real.exp (-M) * Real.exp (score vR memR b i) := by
    intro i
    rw [← Real.exp_add]
    congr 1
    ring
  simp only [hexp, mul_assoc, ← Finset.mul_sum]
  unfold retrieved
  exact mul_div_mul_left _ _ (Real.exp_pos _).ne'

/-- The sum of the weights over a nonempty memory bank is positive. -/
theorem sum_exp_pos (hN : 0 < N) (f : Fin N → ℝ) : 0 < ∑ i, Real.exp (f i) := by
  haveI : Nonempty (Fin N) := ⟨⟨0, hN⟩⟩
  exact Finset.sum_pos (fun i _ => Real.exp_pos _) Finset.univ_nonempty

end RunningSoftmax

open Cert.Mhn.RunningSoftmax

/-! ## The first tile and the step -/

theorem partial_first (hT : 0 < T) (vR : Fin B → Fin D → ℝ) (tile : ℕ → Fin T → Fin D → ℝ) (t : ℕ) :
    Partial vR tile t (t + 1)
      (tileMax (fun _ => ⊥) (fun b k => (vR b k : EReal)) (fun r k => (tile t r k : EReal)))
      (tileSum (fun _ => 0) (fun _ => ⊥) (fun b k => (vR b k : EReal)) (fun r k => (tile t r k : EReal)))
      (tileAcc (fun _ _ => 0) (fun _ => ⊥) (fun b k => (vR b k : EReal)) (fun r k => (tile t r k : EReal))) := by
  have hμ : ∀ b, ∃ μ' : ℝ,
      tileMax (fun _ => ⊥) (fun b k => (vR b k : EReal)) (fun r k => (tile t r k : EReal)) b = (μ' : EReal) :=
    fun b => tileMax_real hT vR (tile t) _ b (Or.inl rfl)
  choose μ hμ using hμ
  refine ⟨μ, hμ, fun b => ?_, fun b d => ?_⟩
  · unfold tileSum
    rw [sum_tileWeight_coe vR (tile t) _ b (hμ b), mul_zero, zero_add, Nat.Ico_succ_singleton,
      Finset.sum_singleton]
  · unfold tileAcc
    rw [sum_tileWeight_mul_coe vR (tile t) _ b (hμ b) d, mul_zero, zero_add, Nat.Ico_succ_singleton,
      Finset.sum_singleton]

theorem partial_step (hT : 0 < T) (vR : Fin B → Fin D → ℝ) (tile : ℕ → Fin T → Fin D → ℝ) {lo t : ℕ} (hle : lo ≤ t)
    {m l : Fin B → EReal} {acc : Fin B → Fin D → EReal} (h : Partial vR tile lo t m l acc) :
    Partial vR tile lo (t + 1)
      (tileMax m (fun b k => (vR b k : EReal)) (fun r k => (tile t r k : EReal)))
      (tileSum l m (fun b k => (vR b k : EReal)) (fun r k => (tile t r k : EReal)))
      (tileAcc acc m (fun b k => (vR b k : EReal)) (fun r k => (tile t r k : EReal))) := by
  obtain ⟨μ, hm, hl, hacc⟩ := h
  have hμ' : ∀ b, ∃ μ' : ℝ,
      tileMax m (fun b k => (vR b k : EReal)) (fun r k => (tile t r k : EReal)) b = (μ' : EReal) :=
    fun b => tileMax_real hT vR (tile t) m b (Or.inr ⟨μ b, hm b⟩)
  choose μ' hμ' using hμ'
  refine ⟨μ', hμ', fun b => ?_, fun b d => ?_⟩
  · unfold tileSum
    rw [tileScale_coe vR (tile t) m b (hm b) (hμ' b), sum_tileWeight_coe vR (tile t) m b (hμ' b), hl b,
      ← EReal.coe_mul, ← EReal.coe_add, Finset.sum_Ico_succ_top hle, exp_shift_sum]
  · unfold tileAcc
    rw [tileScale_coe vR (tile t) m b (hm b) (hμ' b), sum_tileWeight_mul_coe vR (tile t) m b (hμ' b) d, hacc b d,
      ← EReal.coe_mul, ← EReal.coe_add, Finset.sum_Ico_succ_top hle, exp_shift_sum_mul]

/-! ## The merge of two partial states and the quotient -/

theorem merged_eq (hT : 0 < T) {mid n : ℕ} (hmid : 0 < mid) (hn : mid < n) (hN : n * T = N)
    (vR : Fin B → Fin D → ℝ) (memR : Fin N → Fin D → ℝ) (tile : ℕ → Fin T → Fin D → ℝ)
    (htile : ∀ (u : ℕ) (r : Fin T) (k : Fin D) (h : u * T + r.val < N), u < n → tile u r k = memR ⟨u * T + r.val, h⟩ k)
    {m0 l0 m1 l1 : Fin B → EReal} {acc0 acc1 : Fin B → Fin D → EReal}
    (h0 : Partial vR tile 0 mid m0 l0 acc0) (h1 : Partial vR tile mid n m1 l1 acc1) (b : Fin B) (d : Fin D) :
    merged acc0 acc1 m0 m1 l0 l1 b d = ((retrieved vR memR b d : ℝ) : EReal) := by
  obtain ⟨μ0, hm0, hl0, hacc0⟩ := h0
  obtain ⟨μ1, hm1, hl1, hacc1⟩ := h1
  have hNpos : 0 < N := by
    rw [← hN]
    exact Nat.mul_pos (lt_trans hmid hn) hT
  have e0 : Ideal.exp (m0 b - max (m0 b) (m1 b)) = ((Real.exp (μ0 b - max (μ0 b) (μ1 b)) : ℝ) : EReal) := by
    rw [hm0 b, hm1 b, ← coe_max_real, ← EReal.coe_sub, Ideal.exp_coe]
  have e1 : Ideal.exp (m1 b - max (m0 b) (m1 b)) = ((Real.exp (μ1 b - max (μ0 b) (μ1 b)) : ℝ) : EReal) := by
    rw [hm0 b, hm1 b, ← coe_max_real, ← EReal.coe_sub, Ideal.exp_coe]
  -- the merged numerator and denominator, as sums over all rows at the reference value max μ0 μ1
  have hnum : Real.exp (μ0 b - max (μ0 b) (μ1 b))
        * (∑ u ∈ Finset.Ico 0 mid, ∑ r, Real.exp (score vR (tile u) b r - μ0 b) * tile u r d)
      + Real.exp (μ1 b - max (μ0 b) (μ1 b))
        * (∑ u ∈ Finset.Ico mid n, ∑ r, Real.exp (score vR (tile u) b r - μ1 b) * tile u r d)
      = ∑ i, Real.exp (score vR memR b i - max (μ0 b) (μ1 b)) * memR i d := by
    rw [exp_shift_sum_mul, exp_shift_sum_mul, Finset.sum_Ico_consecutive _ (Nat.zero_le _) hn.le]
    refine sum_tiles_eq hN _ _ fun u r h hu => ?_
    rw [score_tile vR memR tile htile b u r h hu, htile u r d h hu]
  have hden : Real.exp (μ0 b - max (μ0 b) (μ1 b))
        * (∑ u ∈ Finset.Ico 0 mid, ∑ r, Real.exp (score vR (tile u) b r - μ0 b))
      + Real.exp (μ1 b - max (μ0 b) (μ1 b))
        * (∑ u ∈ Finset.Ico mid n, ∑ r, Real.exp (score vR (tile u) b r - μ1 b))
      = ∑ i, Real.exp (score vR memR b i - max (μ0 b) (μ1 b)) := by
    rw [exp_shift_sum, exp_shift_sum, Finset.sum_Ico_consecutive _ (Nat.zero_le _) hn.le]
    refine sum_tiles_eq hN _ _ fun u r h hu => ?_
    rw [score_tile vR memR tile htile b u r h hu]
  have hpos : (∑ i, Real.exp (score vR memR b i - max (μ0 b) (μ1 b))) ≠ 0 :=
    (sum_exp_pos hNpos _).ne'
  unfold merged
  rw [e0, e1, hl0 b, hl1 b, hacc0 b d, hacc1 b d]
  simp only [← EReal.coe_mul, ← EReal.coe_add]
  rw [hnum, hden, Ideal.div_coe hpos, ← EReal.coe_mul, mul_one_div, quotient_eq_retrieved hNpos]

end Cert.Mhn

end
-- ==== Proof.KernelState.lean ====
/-
  The running softmax across the grid.

  Grid point t = 16·core + step reads the whole block of queries and tile t of the memory bank (rows 2048·t …
  2048·t + 2047). The three quantities the body carries in scratch — the weighted sum of memory rows, the reference
  value and the sum of the weights — are, at the first point of a core's sweep, one tile step from (0, −∞, 0), and at
  every other point one tile step from what the point before left. With finite queries and a finite memory bank it
  follows by induction on the point that after point n the scratch holds the partial state of the running softmax over
  the tiles of the current sweep, 16·(n / 16) … n: a real reference value μ, Σ exp(score − μ) and Σ exp(score − μ)·mem.
  At the last point of a sweep the three output blocks are these quantities.
-/
import proofs.«126192_j2147483648713_2_alg».proof.Proof.Gen.KernelIdeal.Frame
import proofs.«126192_j2147483648713_2_alg».proof.Proof.KernelPieces
import proofs.«126192_j2147483648713_2_alg».proof.Proof.KernelPay
import proofs.«126192_j2147483648713_2_alg».proof.Proof.RunningSoftmax
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.State

open Cert.KernelIdeal Cert.KernelIdeal.Gen Cert.Mhn

section Blocks
variable {F : FTy → Type} [FloatOps F]
variable (m : (ℓ : Loc nD τ sig) → Buf (Elt F) ℓ)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

theorem iblk0_apply (c : Dev nD) (t : Fin cfg0.N) (b : Fin 512) (k : Fin 256) :
    (iblk m c 0 t : Vec F S512x256 .f32) (ix2 b k) = V m c main_arg0 (ix2 b k) := by
  unfold iblk
  rw [View.read_apply]
  show V m c main_arg0 _ = V m c main_arg0 _
  congr 1
  funext a
  apply Fin.ext
  match a with
  | ⟨0, _⟩ => show win0_0.index t 0 * 512 + 1 * b.val = b.val; rw [(idx0 t).1]; omega
  | ⟨1, _⟩ => show win0_0.index t 1 * 256 + 1 * k.val = k.val; rw [(idx0 t).2]; omega

theorem iblk1_apply (c : Dev nD) (t : Fin cfg0.N) (r : Fin 2048) (k : Fin 256) (h : t.val * 2048 + r.val < 65536) :
    (iblk m c 1 t : Vec F S2048x256 .f32) (ix2 r k) = V m c main_arg2 (ix2 (⟨t.val * 2048 + r.val, h⟩ : Fin 65536) k) := by
  unfold iblk
  rw [View.read_apply]
  show V m c main_arg2 _ = V m c main_arg2 _
  congr 1
  funext a
  apply Fin.ext
  match a with
  | ⟨0, _⟩ => show win0_1.index t 0 * 2048 + 1 * r.val = t.val * 2048 + r.val; rw [(idx1 t).1]; omega
  | ⟨1, _⟩ => show win0_1.index t 1 * 256 + 1 * k.val = k.val; rw [(idx1 t).2]; omega

end Blocks

variable (m : (ℓ : Loc nD τ sig) → Buf (Elt Ideal) ℓ)

/-- The running weighted sum, reference value and weight sum that point `n` leaves in scratch, as functions of the
    query and (for the weighted sum) the feature. -/
abbrev accAt (c : Dev nD) (n : ℕ) (h : n < cfg0.N) : Fin 512 → Fin 256 → EReal := mat (outsAt0 m c n h).2.2.2.1
abbrev refAt (c : Dev nD) (n : ℕ) (h : n < cfg0.N) : Fin 512 → EReal := col (outsAt0 m c n h).2.2.2.2.1
abbrev sumAt (c : Dev nD) (n : ℕ) (h : n < cfg0.N) : Fin 512 → EReal := col (outsAt0 m c n h).2.2.2.2.2

/-- The point's block of queries and its tile of memory rows, as functions of row and feature. -/
abbrev qAt (c : Dev nD) (t : Fin cfg0.N) : Fin 512 → Fin 256 → EReal := mat (iblk m c 0 t : Vec Ideal S512x256 .f32)
abbrev tileAt (c : Dev nD) (t : Fin cfg0.N) : Fin 2048 → Fin 256 → EReal := mat (iblk m c 1 t : Vec Ideal S2048x256 .f32)

theorem reset_acc : mat (k0_pay6 (F := Ideal)) = fun _ _ => 0 := funext fun _ => funext fun _ => Pay.pay6_apply _
theorem reset_ref : col (k0_pay7 (F := Ideal)) = fun _ => ⊥ := funext fun _ => Pay.pay7_apply _
theorem reset_sum : col (k0_pay8 (F := Ideal)) = fun _ => 0 := funext fun _ => Pay.pay8_apply _

/-- At the first point of a core's sweep the three running quantities are one tile step from (0, −∞, 0). -/
theorem first_acc (c : Dev nD) (t : Fin cfg0.N) (h0 : t.val % 16 = 0) (h1 : ¬t.val % 16 = 15) :
    accAt m c t.val t.isLt = tileAcc (fun _ _ => 0) (fun _ => ⊥) (qAt m c t) (tileAt m c t) := by
  funext b d
  show (outsAt0 m c t.val t.isLt).2.2.2.1 (ix2 b d) = _
  rw [outsAt0_A m c t h0 h1]
  dsimp only
  refine (congrFun (Pieces.sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 b d)).trans ?_
  refine (Pay.pay1_apply (iblk m c 0 t : Vec Ideal S512x256 .f32) (iblk m c 1 t : Vec Ideal S2048x256 .f32) (k0_pay7 (F := Ideal)) (k0_pay6 (F := Ideal)) b d).trans ?_
  rw [reset_acc, reset_ref]

theorem first_ref (c : Dev nD) (t : Fin cfg0.N) (h0 : t.val % 16 = 0) (h1 : ¬t.val % 16 = 15) :
    refAt m c t.val t.isLt = tileMax (fun _ => ⊥) (qAt m c t) (tileAt m c t) := by
  funext b
  show (outsAt0 m c t.val t.isLt).2.2.2.2.1 (ix2 b (0 : Fin 1)) = _
  rw [outsAt0_A m c t h0 h1]
  dsimp only
  refine (congrFun (Pieces.sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 b (0 : Fin 1))).trans ?_
  refine (congrFun (Pay.pay2_eq (k0_pay11 (iblk m c 0 t : Vec Ideal S512x256 .f32) (iblk m c 1 t : Vec Ideal S2048x256 .f32) (k0_pay7 (F := Ideal)))) (ix2 b (0 : Fin 1))).trans ?_
  refine (Pay.pay11_apply (iblk m c 0 t : Vec Ideal S512x256 .f32) (iblk m c 1 t : Vec Ideal S2048x256 .f32) (k0_pay7 (F := Ideal)) b).trans ?_
  rw [reset_ref]

theorem first_sum (c : Dev nD) (t : Fin cfg0.N) (h0 : t.val % 16 = 0) (h1 : ¬t.val % 16 = 15) :
    sumAt m c t.val t.isLt = tileSum (fun _ => 0) (fun _ => ⊥) (qAt m c t) (tileAt m c t) := by
  funext b
  show (outsAt0 m c t.val t.isLt).2.2.2.2.2 (ix2 b (0 : Fin 1)) = _
  rw [outsAt0_A m c t h0 h1]
  dsimp only
  refine (congrFun (Pieces.sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 b (0 : Fin 1))).trans ?_
  refine (Pay.pay14_apply (iblk m c 0 t : Vec Ideal S512x256 .f32) (iblk m c 1 t : Vec Ideal S2048x256 .f32) (k0_pay7 (F := Ideal)) (k0_pay8 (F := Ideal)) b).trans ?_
  rw [reset_ref, reset_sum]

/-- At any other point the three running quantities are one tile step from what the point before left. -/
theorem next_acc (c : Dev nD) (t : Fin cfg0.N) (h0 : ¬t.val % 16 = 0) :
    accAt m c t.val t.isLt = tileAcc (accAt m c (t.val - 1) (Nat.lt_of_le_of_lt (Nat.sub_le _ _) t.isLt)) (refAt m c (t.val - 1) (Nat.lt_of_le_of_lt (Nat.sub_le _ _) t.isLt)) (qAt m c t) (tileAt m c t) := by
  funext b d
  show (outsAt0 m c t.val t.isLt).2.2.2.1 (ix2 b d) = _
  by_cases h1 : t.val % 16 = 15
  · rw [outsAt0_C m c t h0 h1]
    dsimp only
    refine (congrFun (Pieces.sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 b d)).trans ?_
    exact Pay.pay1_apply (iblk m c 0 t : Vec Ideal S512x256 .f32) (iblk m c 1 t : Vec Ideal S2048x256 .f32) (outsAt0 m c (t.val - 1) (Nat.lt_of_le_of_lt (Nat.sub_le _ _) t.isLt)).2.2.2.2.1 (outsAt0 m c (t.val - 1) (Nat.lt_of_le_of_lt (Nat.sub_le _ _) t.isLt)).2.2.2.1 b d
  · rw [outsAt0_B m c t h0 h1]
    dsimp only
    refine (congrFun (Pieces.sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 b d)).trans ?_
    exact Pay.pay1_apply (iblk m c 0 t : Vec Ideal S512x256 .f32) (iblk m c 1 t : Vec Ideal S2048x256 .f32) (outsAt0 m c (t.val - 1) (Nat.lt_of_le_of_lt (Nat.sub_le _ _) t.isLt)).2.2.2.2.1 (outsAt0 m c (t.val - 1) (Nat.lt_of_le_of_lt (Nat.sub_le _ _) t.isLt)).2.2.2.1 b d

theorem next_ref (c : Dev nD) (t : Fin cfg0.N) (h0 : ¬t.val % 16 = 0) :
    refAt m c t.val t.isLt = tileMax (refAt m c (t.val - 1) (Nat.lt_of_le_of_lt (Nat.sub_le _ _) t.isLt)) (qAt m c t) (tileAt m c t) := by
  funext b
  show (outsAt0 m c t.val t.isLt).2.2.2.2.1 (ix2 b (0 : Fin 1)) = _
  by_cases h1 : t.val % 16 = 15
  · rw [outsAt0_C m c t h0 h1]
    dsimp only
    refine (congrFun (Pieces.sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 b (0 : Fin 1))).trans ?_
    refine (congrFun (Pay.pay2_eq (k0_pay11 (iblk m c 0 t : Vec Ideal S512x256 .f32) (iblk m c 1 t : Vec Ideal S2048x256 .f32) (outsAt0 m c (t.val - 1) (Nat.lt_of_le_of_lt (Nat.sub_le _ _) t.isLt)).2.2.2.2.1)) (ix2 b (0 : Fin 1))).trans ?_
    exact Pay.pay11_apply (iblk m c 0 t : Vec Ideal S512x256 .f32) (iblk m c 1 t : Vec Ideal S2048x256 .f32) (outsAt0 m c (t.val - 1) (Nat.lt_of_le_of_lt (Nat.sub_le _ _) t.isLt)).2.2.2.2.1 b
  · rw [outsAt0_B m c t h0 h1]
    dsimp only
    refine (congrFun (Pieces.sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 b (0 : Fin 1))).trans ?_
    refine (congrFun (Pay.pay2_eq (k0_pay11 (iblk m c 0 t : Vec Ideal S512x256 .f32) (iblk m c 1 t : Vec Ideal S2048x256 .f32) (outsAt0 m c (t.val - 1) (Nat.lt_of_le_of_lt (Nat.sub_le _ _) t.isLt)).2.2.2.2.1)) (ix2 b (0 : Fin 1))).trans ?_
    exact Pay.pay11_apply (iblk m c 0 t : Vec Ideal S512x256 .f32) (iblk m c 1 t : Vec Ideal S2048x256 .f32) (outsAt0 m c (t.val - 1) (Nat.lt_of_le_of_lt (Nat.sub_le _ _) t.isLt)).2.2.2.2.1 b

theorem next_sum (c : Dev nD) (t : Fin cfg0.N) (h0 : ¬t.val % 16 = 0) :
    sumAt m c t.val t.isLt = tileSum (sumAt m c (t.val - 1) (Nat.lt_of_le_of_lt (Nat.sub_le _ _) t.isLt)) (refAt m c (t.val - 1) (Nat.lt_of_le_of_lt (Nat.sub_le _ _) t.isLt)) (qAt m c t) (tileAt m c t) := by
  funext b
  show (outsAt0 m c t.val t.isLt).2.2.2.2.2 (ix2 b (0 : Fin 1)) = _
  by_cases h1 : t.val % 16 = 15
  · rw [outsAt0_C m c t h0 h1]
    dsimp only
    refine (congrFun (Pieces.sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 b (0 : Fin 1))).trans ?_
    exact Pay.pay14_apply (iblk m c 0 t : Vec Ideal S512x256 .f32) (iblk m c 1 t : Vec Ideal S2048x256 .f32) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b
  · rw [outsAt0_B m c t h0 h1]
    dsimp only
    refine (congrFun (Pieces.sout_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 b (0 : Fin 1))).trans ?_
    exact Pay.pay14_apply (iblk m c 0 t : Vec Ideal S512x256 .f32) (iblk m c 1 t : Vec Ideal S2048x256 .f32) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b

/-- At the last point of a core's sweep the three output blocks are the three running quantities the point leaves,
    with a leading unit axis. -/
theorem out_acc (c : Dev nD) (t : Fin cfg0.N) (h0 : ¬t.val % 16 = 0) (h1 : t.val % 16 = 15) (u : Fin 1) (b : Fin 512) (d : Fin 256) :
    (outsAt0 m c t.val t.isLt).1 (ix3 u b d) = accAt m c t.val t.isLt b d := by
  show _ = (outsAt0 m c t.val t.isLt).2.2.2.1 (ix2 b d)
  rw [outsAt0_C m c t h0 h1]
  dsimp only
  refine (congrFun (Pieces.out_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix3 u b d)).trans ?_
  refine (Pay.pay3_apply _ u b d).trans ?_
  exact (congrFun (Pieces.sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 b d)).symm

theorem out_ref (c : Dev nD) (t : Fin cfg0.N) (h0 : ¬t.val % 16 = 0) (h1 : t.val % 16 = 15) (u : Fin 1) (b : Fin 512) (z : Fin 1) :
    (outsAt0 m c t.val t.isLt).2.1 (ix3 u b z) = (outsAt0 m c t.val t.isLt).2.2.2.2.1 (ix2 b z) := by
  rw [outsAt0_C m c t h0 h1]
  dsimp only
  refine (congrFun (Pieces.out_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix3 u b z)).trans ?_
  refine (Pay.pay4_apply _ u b z).trans ?_
  exact (congrFun (Pieces.sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 b z)).symm

theorem out_sum (c : Dev nD) (t : Fin cfg0.N) (h0 : ¬t.val % 16 = 0) (h1 : t.val % 16 = 15) (u : Fin 1) (b : Fin 512) (z : Fin 1) :
    (outsAt0 m c t.val t.isLt).2.2.1 (ix3 u b z) = (outsAt0 m c t.val t.isLt).2.2.2.2.2 (ix2 b z) := by
  rw [outsAt0_C m c t h0 h1]
  dsimp only
  refine (congrFun (Pieces.out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix3 u b z)).trans ?_
  refine (Pay.pay5_apply _ u b z).trans ?_
  exact (congrFun (Pieces.sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 b z)).symm

/-! ## The invariant: after every point the scratch holds a partial state of the running softmax -/

/-- The real entries of the queries and of the memory bank as the region finds them, and tile `u` of the bank. -/
def vR (c : Dev nD) : Fin 512 → Fin 256 → ℝ := realPart (V m c main_arg0)
def memR (c : Dev nD) : Fin 65536 → Fin 256 → ℝ := realPart (V m c main_arg2)
def tile (c : Dev nD) (u : ℕ) (r : Fin 2048) (k : Fin 256) : ℝ :=
  if h : u * 2048 + r.val < 65536 then memR m c ⟨u * 2048 + r.val, h⟩ k else 0

theorem tile_eq (c : Dev nD) (u : ℕ) (r : Fin 2048) (k : Fin 256) (h : u * 2048 + r.val < 65536) :
    tile m c u r k = memR m c ⟨u * 2048 + r.val, h⟩ k := dif_pos h

/-- With finite queries, the point's block of queries is the real queries. -/
theorem qAt_real (c : Dev nD) (hv : ∀ i, ∃ a : ℝ, V m c main_arg0 i = (a : EReal)) (t : Fin cfg0.N) :
    qAt m c t = fun b k => ((vR m c b k : ℝ) : EReal) := by
  funext b k
  show (iblk m c 0 t : Vec Ideal S512x256 .f32) (ix2 b k) = _
  rw [iblk0_apply]
  exact (coe_realPart (V m c main_arg0) hv b k).symm

/-- With a finite memory bank, the point's tile is tile `t` of the real bank. -/
theorem tileAt_real (c : Dev nD) (hmem : ∀ i, ∃ a : ℝ, V m c main_arg2 i = (a : EReal)) (t : Fin cfg0.N) :
    tileAt m c t = fun r k => ((tile m c t.val r k : ℝ) : EReal) := by
  funext r k
  have hN : cfg0.N = 32 := N_0
  have h : t.val * 2048 + r.val < 65536 := by have := t.isLt; have := r.isLt; omega
  show (iblk m c 1 t : Vec Ideal S2048x256 .f32) (ix2 r k) = _
  rw [iblk1_apply m c t r k h, tile_eq m c t.val r k h]
  exact (coe_realPart (V m c main_arg2) hmem _ k).symm

/-- After point `n` the scratch holds the partial state over the tiles of the current sweep up to `n`. -/
theorem partial_at (c : Dev nD) (hv : ∀ i, ∃ a : ℝ, V m c main_arg0 i = (a : EReal))
    (hmem : ∀ i, ∃ a : ℝ, V m c main_arg2 i = (a : EReal)) :
    ∀ (n : ℕ) (h : n < cfg0.N), Partial (vR m c) (tile m c) (n / 16 * 16) (n + 1) (refAt m c n h) (sumAt m c n h) (accAt m c n h)
  | 0, h => by
    have h1z : ¬(0 % 16 = 15) := by decide
    have e := partial_first (B := 512) (T := 2048) (D := 256) (by norm_num) (vR m c) (tile m c) 0
    rw [← qAt_real m c hv ⟨0, h⟩, ← tileAt_real m c hmem ⟨0, h⟩, ← first_ref m c ⟨0, h⟩ rfl h1z,
      ← first_sum m c ⟨0, h⟩ rfl h1z, ← first_acc m c ⟨0, h⟩ rfl h1z] at e
    exact e
  | n + 1, h => by
    have hN : cfg0.N = 32 := N_0
    by_cases h0 : (n + 1) % 16 = 0
    · have h1 : ¬(n + 1) % 16 = 15 := by omega
      have lo : (n + 1) / 16 * 16 = n + 1 := by omega
      have e := partial_first (B := 512) (T := 2048) (D := 256) (by norm_num) (vR m c) (tile m c) (n + 1)
      rw [← qAt_real m c hv ⟨n + 1, h⟩, ← tileAt_real m c hmem ⟨n + 1, h⟩, ← first_ref m c ⟨n + 1, h⟩ h0 h1,
        ← first_sum m c ⟨n + 1, h⟩ h0 h1, ← first_acc m c ⟨n + 1, h⟩ h0 h1] at e
      rw [lo]
      exact e
    · have lo : (n + 1) / 16 * 16 = n / 16 * 16 := by omega
      have ih := partial_at c hv hmem n (Nat.lt_of_succ_lt h)
      have e := partial_step (B := 512) (T := 2048) (D := 256) (by norm_num) (vR m c) (tile m c) (lo := n / 16 * 16) (t := n + 1) (by omega) ih
      rw [← qAt_real m c hv ⟨n + 1, h⟩, ← tileAt_real m c hmem ⟨n + 1, h⟩] at e
      rw [lo, next_ref m c ⟨n + 1, h⟩ h0, next_sum m c ⟨n + 1, h⟩ h0, next_acc m c ⟨n + 1, h⟩ h0]
      exact e

end Cert.KernelIdeal.State
end
-- ==== Proof.KernelArrays.lean ====
/-
  The three output arrays after the region.

  Output block `core` of each of the three outputs is written back once, after the last point of that core's sweep
  (points 15 and 31), and holds what that point leaves: the running weighted sum, reference value and weight sum of
  the sweep's sixteen tiles. The two blocks tile each array, so each array ends holding, at (core, b, ·), the final
  state of that core's sweep.
-/
import proofs.«126192_j2147483648713_2_alg».proof.Proof.Gen.KernelIdeal.Frame
import proofs.«126192_j2147483648713_2_alg».proof.Proof.KernelState
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Arrays

open Cert.KernelIdeal Cert.KernelIdeal.Gen Cert.Mhn Cert.KernelIdeal.State

variable (m : (ℓ : Loc nD τ sig) → Buf (Elt Ideal) ℓ)

/-- The last point of core `q`'s sweep. -/
def lastPt (q : Fin 2) : Fin cfg0.N := ⟨16 * q.val + 15, by rw [show cfg0.N = 32 from N_0]; have := q.isLt; omega⟩

theorem lastPt_mod (q : Fin 2) : (lastPt q).val % 16 = 15 := by show (16 * q.val + 15) % 16 = 15; omega

/-- The scratch contents after a point depend on the point's number only. -/
theorem scratch_congr (c : Dev nD) {n n' : ℕ} (e : n = n') (h : n < cfg0.N) (h' : n' < cfg0.N) :
    outsAt0 m c n h = outsAt0 m c n' h' := by subst e; rfl

/-- The three output arrays after the region: for each core, the state its sweep ends with. -/
def accOut (c : Dev nD) : Vec Ideal S2x512x256 .f32 :=
  fun i => (outsAt0 m c (lastPt (i 0)).val (lastPt (i 0)).isLt).2.2.2.1 (ix2 (i 1) (i 2))
def refOut (c : Dev nD) : Vec Ideal S2x512x1 .f32 :=
  fun i => (outsAt0 m c (lastPt (i 0)).val (lastPt (i 0)).isLt).2.2.2.2.1 (ix2 (i 1) (i 2))
def sumOut (c : Dev nD) : Vec Ideal S2x512x1 .f32 :=
  fun i => (outsAt0 m c (lastPt (i 0)).val (lastPt (i 0)).isLt).2.2.2.2.2 (ix2 (i 1) (i 2))

theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)

theorem mem_blk2 (t : Fin cfg0.N) (i : S2x512x256.Idx) :
    i ∈ ((cfg0.win 2).blk t).view.set ↔ ∀ a : Fin 3, win0_2.index t a * S1x512x256.size a ≤ (i a).val ∧ (i a).val < win0_2.index t a * S1x512x256.size a + S1x512x256.size a := by
  show i ∈ ((View.whole main_v0_0).slice (win0_2.rect t)).set ↔ _
  rw [View.set_slice_whole, Rect.mem_set_unit]
  exact Iff.rfl

/-- Every entry of the array lies in the block that the last point of its core's sweep writes back. -/
theorem cover2 (i : S2x512x256.Idx) : ∃ t : Fin cfg0.N, (cfg0.win 2).flush t = true ∧ i ∈ ((cfg0.win 2).blk t).view.set := by
  refine ⟨lastPt (i 0), (flush0_2 _).mpr (lastPt_mod _), ?_⟩
  rw [mem_blk2]
  obtain ⟨e0, e1, e2⟩ := idx2 (lastPt (i 0))
  have hv : (lastPt (i 0)).val = 16 * (i 0).val + 15 := rfl
  have h0 : (i 0).val < 2 := (i 0).isLt
  have h1 : (i 1).val < 512 := (i 1).isLt
  have h2 : (i 2).val < 256 := (i 2).isLt
  intro a
  match a with
  | ⟨0, _⟩ => show win0_2.index (lastPt (i 0)) 0 * 1 ≤ (i 0).val ∧ (i 0).val < win0_2.index (lastPt (i 0)) 0 * 1 + 1; rw [e0, hv]; omega
  | ⟨1, _⟩ => show win0_2.index (lastPt (i 0)) 1 * 512 ≤ (i 1).val ∧ (i 1).val < win0_2.index (lastPt (i 0)) 1 * 512 + 512; rw [e1]; omega
  | ⟨2, _⟩ => show win0_2.index (lastPt (i 0)) 2 * 256 ≤ (i 2).val ∧ (i 2).val < win0_2.index (lastPt (i 0)) 2 * 256 + 256; rw [e2]; omega

theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)

theorem mem_blk3 (t : Fin cfg0.N) (i : S2x512x1.Idx) :
    i ∈ ((cfg0.win 3).blk t).view.set ↔ ∀ a : Fin 3, win0_3.index t a * S1x512x1.size a ≤ (i a).val ∧ (i a).val < win0_3.index t a * S1x512x1.size a + S1x512x1.size a := by
  show i ∈ ((View.whole main_v0_1).slice (win0_3.rect t)).set ↔ _
  rw [View.set_slice_whole, Rect.mem_set_unit]
  exact Iff.rfl

/-- Every entry of the array lies in the block that the last point of its core's sweep writes back. -/
theorem cover3 (i : S2x512x1.Idx) : ∃ t : Fin cfg0.N, (cfg0.win 3).flush t = true ∧ i ∈ ((cfg0.win 3).blk t).view.set := by
  refine ⟨lastPt (i 0), (flush0_3 _).mpr (lastPt_mod _), ?_⟩
  rw [mem_blk3]
  obtain ⟨e0, e1, e2⟩ := idx3 (lastPt (i 0))
  have hv : (lastPt (i 0)).val = 16 * (i 0).val + 15 := rfl
  have h0 : (i 0).val < 2 := (i 0).isLt
  have h1 : (i 1).val < 512 := (i 1).isLt
  have h2 : (i 2).val < 1 := (i 2).isLt
  intro a
  match a with
  | ⟨0, _⟩ => show win0_3.index (lastPt (i 0)) 0 * 1 ≤ (i 0).val ∧ (i 0).val < win0_3.index (lastPt (i 0)) 0 * 1 + 1; rw [e0, hv]; omega
  | ⟨1, _⟩ => show win0_3.index (lastPt (i 0)) 1 * 512 ≤ (i 1).val ∧ (i 1).val < win0_3.index (lastPt (i 0)) 1 * 512 + 512; rw [e1]; omega
  | ⟨2, _⟩ => show win0_3.index (lastPt (i 0)) 2 * 1 ≤ (i 2).val ∧ (i 2).val < win0_3.index (lastPt (i 0)) 2 * 1 + 1; rw [e2]; omega

theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, _)

theorem mem_blk4 (t : Fin cfg0.N) (i : S2x512x1.Idx) :
    i ∈ ((cfg0.win 4).blk t).view.set ↔ ∀ a : Fin 3, win0_4.index t a * S1x512x1.size a ≤ (i a).val ∧ (i a).val < win0_4.index t a * S1x512x1.size a + S1x512x1.size a := by
  show i ∈ ((View.whole main_v0_2).slice (win0_4.rect t)).set ↔ _
  rw [View.set_slice_whole, Rect.mem_set_unit]
  exact Iff.rfl

/-- Every entry of the array lies in the block that the last point of its core's sweep writes back. -/
theorem cover4 (i : S2x512x1.Idx) : ∃ t : Fin cfg0.N, (cfg0.win 4).flush t = true ∧ i ∈ ((cfg0.win 4).blk t).view.set := by
  refine ⟨lastPt (i 0), (flush0_4 _).mpr (lastPt_mod _), ?_⟩
  rw [mem_blk4]
  obtain ⟨e0, e1, e2⟩ := idx4 (lastPt (i 0))
  have hv : (lastPt (i 0)).val = 16 * (i 0).val + 15 := rfl
  have h0 : (i 0).val < 2 := (i 0).isLt
  have h1 : (i 1).val < 512 := (i 1).isLt
  have h2 : (i 2).val < 1 := (i 2).isLt
  intro a
  match a with
  | ⟨0, _⟩ => show win0_4.index (lastPt (i 0)) 0 * 1 ≤ (i 0).val ∧ (i 0).val < win0_4.index (lastPt (i 0)) 0 * 1 + 1; rw [e0, hv]; omega
  | ⟨1, _⟩ => show win0_4.index (lastPt (i 0)) 1 * 512 ≤ (i 1).val ∧ (i 1).val < win0_4.index (lastPt (i 0)) 1 * 512 + 512; rw [e1]; omega
  | ⟨2, _⟩ => show win0_4.index (lastPt (i 0)) 2 * 1 ≤ (i 2).val ∧ (i 2).val < win0_4.index (lastPt (i 0)) 2 * 1 + 1; rw [e2]; omega

/-- What a flushing point writes back is its block of the sweep's final state. -/
theorem flushed2_eq (c : Dev nD) (t : Fin cfg0.N) (hf : (cfg0.win 2).flush t = true) :
    (dats m 0 c).flushed 2 t = ((cfg0.win 2).blk t).view.read (Elt Ideal) (accOut m c) := by
  have h15 : t.val % 16 = 15 := (flush0_2 t).mp hf
  have h0 : ¬t.val % 16 = 0 := by omega
  have hN : cfg0.N = 32 := N_0
  have hlt := t.isLt
  have hq : t.val / 16 < 2 := by omega
  have e : t.val = 16 * (t.val / 16) + 15 := by omega
  obtain ⟨e0, e1, e2⟩ := idx2 t
  show (cfg0.win 2).cut (grid0.coords t) ((dats m 0 c).after 2 t) = _
  rw [after0_2]
  funext j
  obtain ⟨u, b, d, rfl⟩ : ∃ (u : Fin 1) (b : Fin 512) (d : Fin 256), j = ix3 u b d := ⟨j 0, j 1, j 2, eq_ix3 j⟩
  rw [View.read_apply]
  have hemb : ((cfg0.win 2).blk t).view.emb (ix3 u b d) = ix3 (⟨t.val / 16, hq⟩ : Fin 2) b d := by
    funext a; apply Fin.ext
    match a with
    | ⟨0, _⟩ => show win0_2.index t 0 * 1 + 1 * u.val = t.val / 16; rw [e0]; omega
    | ⟨1, _⟩ => show win0_2.index t 1 * 512 + 1 * b.val = b.val; rw [e1]; omega
    | ⟨2, _⟩ => show win0_2.index t 2 * 256 + 1 * d.val = d.val; rw [e2]; omega
  rw [hemb]
  show (outsAt0 m c t.val t.isLt).1 (ix3 u b d) = _
  rw [out_acc m c t h0 h15 u b d]
  exact congrArg (fun o => o.2.2.2.1 (ix2 b d)) (scratch_congr m c e t.isLt (lastPt ⟨t.val / 16, hq⟩).isLt)

/-- So the array ends holding, for each core, the state its sweep ends with. -/
theorem final2 (c : Dev nD) : (dats m 0 c).arrAt 2 cfg0.N = accOut m c :=
  (dats m 0 c).arrAt_eq_of_cover 2 (accOut m c) (flushed2_eq m c) cover2

/-- What a flushing point writes back is its block of the sweep's final state. -/
theorem flushed3_eq (c : Dev nD) (t : Fin cfg0.N) (hf : (cfg0.win 3).flush t = true) :
    (dats m 0 c).flushed 3 t = ((cfg0.win 3).blk t).view.read (Elt Ideal) (refOut m c) := by
  have h15 : t.val % 16 = 15 := (flush0_3 t).mp hf
  have h0 : ¬t.val % 16 = 0 := by omega
  have hN : cfg0.N = 32 := N_0
  have hlt := t.isLt
  have hq : t.val / 16 < 2 := by omega
  have e : t.val = 16 * (t.val / 16) + 15 := by omega
  obtain ⟨e0, e1, e2⟩ := idx3 t
  show (cfg0.win 3).cut (grid0.coords t) ((dats m 0 c).after 3 t) = _
  rw [after0_3]
  funext j
  obtain ⟨u, b, d, rfl⟩ : ∃ (u : Fin 1) (b : Fin 512) (d : Fin 1), j = ix3 u b d := ⟨j 0, j 1, j 2, eq_ix3 j⟩
  rw [View.read_apply]
  have hemb : ((cfg0.win 3).blk t).view.emb (ix3 u b d) = ix3 (⟨t.val / 16, hq⟩ : Fin 2) b d := by
    funext a; apply Fin.ext
    match a with
    | ⟨0, _⟩ => show win0_3.index t 0 * 1 + 1 * u.val = t.val / 16; rw [e0]; omega
    | ⟨1, _⟩ => show win0_3.index t 1 * 512 + 1 * b.val = b.val; rw [e1]; omega
    | ⟨2, _⟩ => show win0_3.index t 2 * 1 + 1 * d.val = d.val; rw [e2]; omega
  rw [hemb]
  show (outsAt0 m c t.val t.isLt).2.1 (ix3 u b d) = _
  rw [out_ref m c t h0 h15 u b d]
  exact congrArg (fun o => o.2.2.2.2.1 (ix2 b d)) (scratch_congr m c e t.isLt (lastPt ⟨t.val / 16, hq⟩).isLt)

/-- So the array ends holding, for each core, the state its sweep ends with. -/
theorem final3 (c : Dev nD) : (dats m 0 c).arrAt 3 cfg0.N = refOut m c :=
  (dats m 0 c).arrAt_eq_of_cover 3 (refOut m c) (flushed3_eq m c) cover3

/-- What a flushing point writes back is its block of the sweep's final state. -/
theorem flushed4_eq (c : Dev nD) (t : Fin cfg0.N) (hf : (cfg0.win 4).flush t = true) :
    (dats m 0 c).flushed 4 t = ((cfg0.win 4).blk t).view.read (Elt Ideal) (sumOut m c) := by
  have h15 : t.val % 16 = 15 := (flush0_4 t).mp hf
  have h0 : ¬t.val % 16 = 0 := by omega
  have hN : cfg0.N = 32 := N_0
  have hlt := t.isLt
  have hq : t.val / 16 < 2 := by omega
  have e : t.val = 16 * (t.val / 16) + 15 := by omega
  obtain ⟨e0, e1, e2⟩ := idx4 t
  show (cfg0.win 4).cut (grid0.coords t) ((dats m 0 c).after 4 t) = _
  rw [after0_4]
  funext j
  obtain ⟨u, b, d, rfl⟩ : ∃ (u : Fin 1) (b : Fin 512) (d : Fin 1), j = ix3 u b d := ⟨j 0, j 1, j 2, eq_ix3 j⟩
  rw [View.read_apply]
  have hemb : ((cfg0.win 4).blk t).view.emb (ix3 u b d) = ix3 (⟨t.val / 16, hq⟩ : Fin 2) b d := by
    funext a; apply Fin.ext
    match a with
    | ⟨0, _⟩ => show win0_4.index t 0 * 1 + 1 * u.val = t.val / 16; rw [e0]; omega
    | ⟨1, _⟩ => show win0_4.index t 1 * 512 + 1 * b.val = b.val; rw [e1]; omega
    | ⟨2, _⟩ => show win0_4.index t 2 * 1 + 1 * d.val = d.val; rw [e2]; omega
  rw [hemb]
  show (outsAt0 m c t.val t.isLt).2.2.1 (ix3 u b d) = _
  rw [out_sum m c t h0 h15 u b d]
  exact congrArg (fun o => o.2.2.2.2.2 (ix2 b d)) (scratch_congr m c e t.isLt (lastPt ⟨t.val / 16, hq⟩).isLt)

/-- So the array ends holding, for each core, the state its sweep ends with. -/
theorem final4 (c : Dev nD) : (dats m 0 c).arrAt 4 cfg0.N = sumOut m c :=
  (dats m 0 c).arrAt_eq_of_cover 4 (sumOut m c) (flushed4_eq m c) cover4

end Cert.KernelIdeal.Arrays
end
-- ==== Proof.KernelTail.lean ====
/-
  The host's merge of the two cores' partial states, and the kernel's run read as a value.

  After the region the host cuts core 0's and core 1's slab out of each of the three output arrays, takes the larger
  of the two reference values, rescales each core's weight sum and weighted sum by exp(m_core − m), adds them and
  divides; then it moves each query half of the way towards the quotient under the mask. Entry by entry the quotient is
  the specification's `merged`; the two slabs hold the partial states of the running softmax over tiles 0 … 15 and
  16 … 31, so the quotient is the retrieved vector, and the result buffer ends at the specification's result.
-/
import proofs.«126192_j2147483648713_2_alg».proof.Proof.Gen.KernelIdeal.Frame
import proofs.«126192_j2147483648713_2_alg».proof.Proof.Spec
import proofs.«126192_j2147483648713_2_alg».proof.Proof.KernelPay
import proofs.«126192_j2147483648713_2_alg».proof.Proof.KernelState
import proofs.«126192_j2147483648713_2_alg».proof.Proof.KernelArrays
import proofs.«126192_j2147483648713_2_alg».proof.Proof.RunningSoftmax
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Tail

open Cert.KernelIdeal Cert.KernelIdeal.Gen Cert.Mhn

/-- Core `q`'s slab of a 2×n1×n2 array, cut out with a leading unit axis, reads the array at (q, b, z). -/
theorem slice_core {α : Type} {n1 n2 : ℕ} (o : ℕ) (q : Fin 2) (hq : q.val = o) (A : (⟨3, ![2, n1, n2]⟩ : Shape).Idx → α)
    (h : (⟨3, ![2, n1, n2]⟩ : Shape).Slices ![o, 0, 0] ⟨3, ![1, n1, n2]⟩) (u : Fin 1) (b : Fin n1) (z : Fin n2) :
    extractStridedSlice ⟨3, ![1, n1, n2]⟩ ![o, 0, 0] A h (ix3 u b z) = A (ix3 q b z) :=
  extractStridedSlice_apply _ _ _ _ _ (fun ax => by
    match ax with
    | ⟨0, _⟩ => show q.val = o + u.val; omega
    | ⟨1, _⟩ => exact (Nat.zero_add _).symm
    | ⟨2, _⟩ => exact (Nat.zero_add _).symm)

/-- A 512×1 column spread over the 256 columns reads the column's entry. -/
theorem spread_apply {α : Type} (e : S512x1.Idx → α) (b : Fin 512) (d : Fin 256) :
    broadcastInDim S512x256 ![0, 1] bcast_S512x1_S512x256_0_1 e (ix2 b d) = e (ix2 b (0 : Fin 1)) :=
  broadcastInDim_apply _ _ e (ix2 b d) (ix2 b (0 : Fin 1)) (fun a => by
    match a with
    | ⟨0, _⟩ => show b.val = if (512 : ℕ) = 1 then 0 else b.val; rw [if_neg (by decide)]
    | ⟨1, _⟩ => rfl)

/-- Core `o`'s column of a 2×512×1 array and core `o`'s matrix of a 2×512×256 array. -/
def colOf (o : ℕ) (hs : S2x512x1.Slices ![o, 0, 0] S1x512x1) (A : FVec Ideal S2x512x1 .f32) : FVec Ideal S512x1 .f32 :=
  fun i => shapeCast S512x1 (extractStridedSlice S1x512x1 ![o, 0, 0] A hs) shapeCasts_S1x512x1_S512x1 i
def matOf (o : ℕ) (hs : S2x512x256.Slices ![o, 0, 0] S1x512x256) (A : FVec Ideal S2x512x256 .f32) : FVec Ideal S512x256 .f32 :=
  fun i => shapeCast S512x256 (extractStridedSlice S1x512x256 ![o, 0, 0] A hs) shapeCasts_S1x512x256_S512x256 i

theorem colOf_apply (o : ℕ) (q : Fin 2) (hq : q.val = o) (hs : S2x512x1.Slices ![o, 0, 0] S1x512x1) (A : FVec Ideal S2x512x1 .f32)
    (b : Fin 512) (z : Fin 1) : colOf o hs A (ix2 b z) = A (ix3 q b z) := by
  unfold colOf
  rw [shapeCast_1ab_ab_apply]
  exact slice_core o q hq A hs 0 b z

theorem matOf_apply (o : ℕ) (q : Fin 2) (hq : q.val = o) (hs : S2x512x256.Slices ![o, 0, 0] S1x512x256) (A : FVec Ideal S2x512x256 .f32)
    (b : Fin 512) (d : Fin 256) : matOf o hs A (ix2 b d) = A (ix3 q b d) := by
  unfold matOf
  rw [shapeCast_1ab_ab_apply]
  exact slice_core o q hq A hs 0 b d

/-- The merge of the two cores' partial states and the final quotient, as the host computes it from the three output
    arrays: both brought to the larger reference value, added, and the weighted sum divided by the weight sum. -/
def hostMerge (A0 : FVec Ideal S2x512x256 .f32) (A1 A2 : FVec Ideal S2x512x1 .f32) : FVec Ideal S512x256 .f32 :=
  Host.divf (F := Ideal)
    (addf
      (mulf (broadcastInDim S512x256 ![0, 1] bcast_S512x1_S512x256_0_1
          (Host.exp (F := Ideal) (subf (colOf 0 slices_S2x512x1_S1x512x1_0_0_0 A1)
            (maximumf (colOf 0 slices_S2x512x1_S1x512x1_0_0_0 A1) (colOf 1 slices_S2x512x1_S1x512x1_1_0_0 A1)))))
        (matOf 0 slices_S2x512x256_S1x512x256_0_0_0 A0))
      (mulf (broadcastInDim S512x256 ![0, 1] bcast_S512x1_S512x256_0_1
          (Host.exp (F := Ideal) (subf (colOf 1 slices_S2x512x1_S1x512x1_1_0_0 A1)
            (maximumf (colOf 0 slices_S2x512x1_S1x512x1_0_0_0 A1) (colOf 1 slices_S2x512x1_S1x512x1_1_0_0 A1)))))
        (matOf 1 slices_S2x512x256_S1x512x256_1_0_0 A0)))
    (broadcastInDim S512x256 ![0, 1] bcast_S512x1_S512x256_0_1
      (addf
        (mulf (Host.exp (F := Ideal) (subf (colOf 0 slices_S2x512x1_S1x512x1_0_0_0 A1)
            (maximumf (colOf 0 slices_S2x512x1_S1x512x1_0_0_0 A1) (colOf 1 slices_S2x512x1_S1x512x1_1_0_0 A1))))
          (colOf 0 slices_S2x512x1_S1x512x1_0_0_0 A2))
        (mulf (Host.exp (F := Ideal) (subf (colOf 1 slices_S2x512x1_S1x512x1_1_0_0 A1)
            (maximumf (colOf 0 slices_S2x512x1_S1x512x1_0_0_0 A1) (colOf 1 slices_S2x512x1_S1x512x1_1_0_0 A1))))
          (colOf 1 slices_S2x512x1_S1x512x1_1_0_0 A2))))

/-- Entry by entry the host's merge is the specification's. -/
theorem hostMerge_apply (A0 : FVec Ideal S2x512x256 .f32) (A1 A2 : FVec Ideal S2x512x1 .f32) (b : Fin 512) (d : Fin 256) :
    hostMerge A0 A1 A2 (ix2 b d)
      = merged (fun b d => A0 (ix3 (0 : Fin 2) b d)) (fun b d => A0 (ix3 (1 : Fin 2) b d))
          (fun b => A1 (ix3 (0 : Fin 2) b (0 : Fin 1))) (fun b => A1 (ix3 (1 : Fin 2) b (0 : Fin 1)))
          (fun b => A2 (ix3 (0 : Fin 2) b (0 : Fin 1))) (fun b => A2 (ix3 (1 : Fin 2) b (0 : Fin 1))) b d := by
  unfold hostMerge merged
  show Ideal.div _ _ = _
  rw [addf_apply, mulf_apply, mulf_apply, spread_apply, spread_apply, spread_apply]
  simp only [addf_apply, mulf_apply, Host.exp, Cert.LibRowOps.exp_apply, subf_apply, maximumf_apply,
    colOf_apply 0 0 rfl, colOf_apply 1 1 rfl, matOf_apply 0 0 rfl, matOf_apply 1 1 rfl]
  rfl

variable (m : (ℓ : Loc nD τ sig) → Buf (Elt Ideal) ℓ)

open Cert.KernelIdeal.State Cert.KernelIdeal.Arrays

/-- The result buffer after the host operations that follow the region: the blend of the queries with the host's merge
    of the three output arrays. -/
theorem tail_eq (c : Dev nD) :
    Pipeline.afterTail₀ cfgs (dats m) 0 (V0 m) [hostOps1] c main_v32
      = blend bcast_S_S512x256 (hostMerge ((Pipeline.withArrays (cfgs 0).spec c (V0 m c) (fun w => (dats m 0 c).arrAt w (cfgs 0).N)) (Proc.devRef .tc main_v0_0)) ((Pipeline.withArrays (cfgs 0).spec c (V0 m c) (fun w => (dats m 0 c).arrAt w (cfgs 0).N)) (Proc.devRef .tc main_v0_1)) ((Pipeline.withArrays (cfgs 0).spec c (V0 m c) (fun w => (dats m 0 c).arrAt w (cfgs 0).N)) (Proc.devRef .tc main_v0_2)))
          ((Pipeline.withArrays (cfgs 0).spec c (V0 m c) (fun w => (dats m 0 c).arrAt w (cfgs 0).N)) (Proc.devRef .tc main_arg0)) ((Pipeline.withArrays (cfgs 0).spec c (V0 m c) (fun w => (dats m 0 c).arrAt w (cfgs 0).N)) (Proc.devRef .tc main_arg1)) := by
  unfold Pipeline.afterTail₀
  simp only [List.flatten_cons, List.flatten_nil, List.append_nil]
  generalize Pipeline.withArrays (cfgs 0).spec c (V0 m c) (fun w => (dats m 0 c).arrAt w (cfgs 0).N) = W
  after_results_simp
  rfl

theorem W_acc (c : Dev nD) : ((Pipeline.withArrays (cfgs 0).spec c (V0 m c) (fun w => (dats m 0 c).arrAt w (cfgs 0).N)) (Proc.devRef .tc main_v0_0)) = accOut m c :=
  (Pipeline.withArrays_arr spec0 launch0.win.arr_inj c _ _ 2).trans (final2 m c)
theorem W_ref (c : Dev nD) : ((Pipeline.withArrays (cfgs 0).spec c (V0 m c) (fun w => (dats m 0 c).arrAt w (cfgs 0).N)) (Proc.devRef .tc main_v0_1)) = refOut m c :=
  (Pipeline.withArrays_arr spec0 launch0.win.arr_inj c _ _ 3).trans (final3 m c)
theorem W_sum (c : Dev nD) : ((Pipeline.withArrays (cfgs 0).spec c (V0 m c) (fun w => (dats m 0 c).arrAt w (cfgs 0).N)) (Proc.devRef .tc main_v0_2)) = sumOut m c :=
  (Pipeline.withArrays_arr spec0 launch0.win.arr_inj c _ _ 4).trans (final4 m c)
theorem W_arg0 (c : Dev nD) : ((Pipeline.withArrays (cfgs 0).spec c (V0 m c) (fun w => (dats m 0 c).arrAt w (cfgs 0).N)) (Proc.devRef .tc main_arg0)) = V m c main_arg0 :=
  (Pipeline.withArrays_arr spec0 launch0.win.arr_inj c _ _ 0).trans (((dats m 0 c).arrAt_in 0 rfl _).trans (A_eq m c 0))
theorem W_arg1 (c : Dev nD) : ((Pipeline.withArrays (cfgs 0).spec c (V0 m c) (fun w => (dats m 0 c).arrAt w (cfgs 0).N)) (Proc.devRef .tc main_arg1)) = V m c main_arg1 :=
  Pipeline.withArrays_of_ne _ c (V0 m c) _ main_arg1 (by exact (by decide : ∀ w, Pipeline.arrRef spec0 w ≠ main_arg1))

/-- With finite queries and a finite memory bank, core `q`'s output blocks hold the partial state of the running
    softmax over the sixteen tiles of its sweep. -/
theorem sweep_partial (c : Dev nD) (hv : ∀ i, ∃ a : ℝ, V m c main_arg0 i = (a : EReal))
    (hmem : ∀ i, ∃ a : ℝ, V m c main_arg2 i = (a : EReal)) (q : Fin 2) :
    Partial (vR m c) (tile m c) (16 * q.val) (16 * q.val + 16)
      (fun b => refOut m c (ix3 q b (0 : Fin 1))) (fun b => sumOut m c (ix3 q b (0 : Fin 1))) (fun b d => accOut m c (ix3 q b d)) := by
  have h := partial_at m c hv hmem (lastPt q).val (lastPt q).isLt
  have e1 : (lastPt q).val / 16 * 16 = 16 * q.val := by show (16 * q.val + 15) / 16 * 16 = _; omega
  have e2 : (lastPt q).val + 1 = 16 * q.val + 16 := rfl
  rw [e1, e2] at h
  exact h

/-- So the host's merge of the two sweeps' final states is the retrieved vectors: tiles 0 … 15 and 16 … 31 are the
    whole bank. -/
theorem merge_eq_retrieved (c : Dev nD) (hv : ∀ i, ∃ a : ℝ, V m c main_arg0 i = (a : EReal))
    (hmem : ∀ i, ∃ a : ℝ, V m c main_arg2 i = (a : EReal)) :
    hostMerge (accOut m c) (refOut m c) (sumOut m c) = retrievedArr (V m c main_arg0) (V m c main_arg2) := by
  have p0 : Partial (vR m c) (tile m c) 0 16 _ _ _ := sweep_partial m c hv hmem 0
  have p1 : Partial (vR m c) (tile m c) 16 32 _ _ _ := sweep_partial m c hv hmem 1
  funext i
  obtain ⟨b, d, rfl⟩ : ∃ (b : Fin 512) (d : Fin 256), i = ix2 b d := ⟨i 0, i 1, eq_ix2 i⟩
  rw [hostMerge_apply, retrievedArr_apply]
  exact merged_eq (B := 512) (T := 2048) (D := 256) (N := 65536) (by norm_num) (mid := 16) (n := 32) (by norm_num) (by norm_num)
    (by norm_num) (vR m c) (memR m c) (tile m c) (fun u r k h _ => tile_eq m c u r k h) p0 p1 b d

/-- The result buffer holds the specification's result of the argument arrays. -/
theorem result_eq (c : Dev nD) (hv : ∀ i, ∃ a : ℝ, V m c main_arg0 i = (a : EReal))
    (hmem : ∀ i, ∃ a : ℝ, V m c main_arg2 i = (a : EReal)) :
    Pipeline.afterTail₀ cfgs (dats m) 0 (V0 m) [hostOps1] c main_v32
      = Cert.Mhn.result bcast_S_S512x256 (V m c main_arg0) (V m c main_arg1) (V m c main_arg2) := by
  rw [tail_eq, W_acc, W_ref, W_sum, W_arg0, W_arg1, merge_eq_retrieved m c hv hmem]
  rfl

/-- The kernel's run, read: the result at the specification's value of the arguments, the arguments unchanged. -/
theorem run (ρ : Dev nD → PrngReg)
    (hv : ∀ (c : Dev nD) i, ∃ a : ℝ, m ((c.tc : Thread nD τ).loc main_arg0) i = (a : EReal))
    (hmem : ∀ (c : Dev nD) i, ∃ a : ℝ, m ((c.tc : Thread nD τ).loc main_arg2) i = (a : EReal)) :
    θ_run defs (onTc (τ := τ) (main (F := Ideal))) ⟨m, fun _ => 0, ρ⟩ (fun r => ∀ c : Dev nD,
      r.2.mem ((c.tc : Thread nD τ).loc main_v32)
        = Cert.Mhn.result bcast_S_S512x256 (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v32 (Pipeline.mem_restRefs_of main_v32 (by decide) (by decide))).trans (result_eq m c (hv c) (hmem c)),
      ((h c).1 0).trans ((((dats m 0 c).arrAt_in 0 rfl _).trans ((A_eq m c 0).trans (V_main_arg0 m c)))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c)))⟩) (run_main m ρ)

end Cert.KernelIdeal.Tail
end
-- ==== Proof.RefMath.lean ====
/-
  Real analysis behind a softmax-weighted mean.

  For weights exp(s r + c) over a finite index set, normalised by their own sum, the weighted mean of a family m does
  not depend on the common shift c of the exponents: the factor exp c leaves numerator and denominator together.
  A sum of exponentials over a nonempty index set is positive. The fold of the maximum, started at the bottom of the
  extended reals, over a nonempty finite family of real numbers is again a real number.
-/
import Mathlib

noncomputable section

namespace Cert.Mhn.Ref

open scoped BigOperators

/-- A sum of exponentials over a nonempty finite index set is positive. -/
theorem sum_exp_pos {ι : Type*} [Fintype ι] [Nonempty ι] (s : ι → ℝ) : 0 < ∑ r, Real.exp (s r) :=
  Finset.sum_pos (fun r _ => Real.exp_pos _) Finset.univ_nonempty

/-- The normalised weights exp(s r + c) / Σ exp(s r' + c) give the same weighted mean of `m` as the weights
    exp(s r) / Σ exp(s r'): the common factor exp c cancels. -/
theorem ratio_shift {ι : Type*} [Fintype ι] (s m : ι → ℝ) (c : ℝ) (hZ : (∑ r, Real.exp (s r)) ≠ 0) :
    ∑ r, (Real.exp (s r + c) * (1 / ∑ r', Real.exp (s r' + c))) * m r
      = (∑ r, Real.exp (s r) * m r) / (∑ r, Real.exp (s r)) := by
  have hc : Real.exp c ≠ 0 := (Real.exp_pos c).ne'
  have hZ' : ∑ r', Real.exp (s r' + c) = (∑ r', Real.exp (s r')) * Real.exp c := by
    rw [Finset.sum_mul]; exact Finset.sum_congr rfl fun r _ => Real.exp_add _ _
  rw [hZ']
  have step : ∀ r, (Real.exp (s r + c) * (1 / ((∑ r', Real.exp (s r')) * Real.exp c))) * m r
      = (Real.exp (s r) * m r) / (∑ r', Real.exp (s r')) := by
    intro r; rw [Real.exp_add]; field_simp
  rw [Finset.sum_congr rfl fun r _ => step r, Finset.sum_div]

/-- The maximum of two real numbers, taken in the extended reals, is the real maximum. -/
theorem coe_max (a b : ℝ) : max (a : EReal) (b : EReal) = ((max a b : ℝ) : EReal) :=
  (EReal.coe_strictMono.monotone.map_max).symm

/-- The fold of `max` from the bottom element over a nonempty finite family of real numbers is a real number. -/
theorem fold_max_real {ι : Type*} (s : Finset ι) (hs : s.Nonempty) (f : ι → ℝ) :
    ∃ M : ℝ, s.fold max (⊥ : EReal) (fun k => (f k : EReal)) = (M : EReal) := by
  induction hs using Finset.Nonempty.cons_induction with
  | singleton a => exact ⟨f a, by rw [Finset.fold_singleton]; exact max_bot_right _⟩
  | cons a s ha hs ih =>
    obtain ⟨M, hM⟩ := ih
    exact ⟨max (f a) M, by rw [Finset.fold_cons, hM]; exact coe_max _ _⟩

end Cert.Mhn.Ref

end
-- ==== Proof.RefRead.lean ====
/-
  The reference program read at an entry.

  The reference forms, for memory row r and query b, the logit  −½ · ((‖mem_r‖² − 2 · ⟨mem_r, v_b⟩) + ‖v_b‖²),
  takes for each query the maximum of its logits over the memory rows, exponentiates the differences, normalises
  them by their sum over the memory rows, and contracts the weights with the memory rows. Each lemma below reads one
  of these arrays at an entry given by its coordinates, in terms of the arrays before it.
-/
import proofs.«126192_j2147483648713_2_alg».proof.Proof.Gen.ReferenceIdeal.Read
import proofs.«126192_j2147483648713_2_alg».proof.Proof.Spec
import proofs.«126192_j2147483648713_2_alg».proof.Proof.Consts
import proofs.«126192_j2147483648713_2_alg».proof.Proof.RealSums
import proofs.«126192_j2147483648713_2_alg».proof.Proof.RefMath
import Idealize.ShloMosaic.Lib.ValueIdx
import Idealize.ShloMosaic.PureOps.Ideal.Laws

noncomputable section

namespace Cert.Mhn.Ref

open Idealize.ShloMosaic Idealize.ShloMosaic.ValueIdx Cert.ReferenceIdeal Cert.ReferenceIdeal.Read
open scoped BigOperators

/-! ## A maximum over the rows of a matrix, read at a column -/

/-- Inserting the row coordinate `k` into the column index `p` gives the entry `(k, p)`. -/
theorem lift_ix1_rows {R D : ℕ} (h : (⟨2, ![R, D]⟩ : Shape).Reduces [0] ⟨1, ![D]⟩) (p : Fin D) (k : Fin R) :
    h.lift (ix1 p) k = ix2 k p := by
  funext c
  apply Fin.ext
  show h.liftVal (ix1 p) k.val c = _
  unfold Shape.Reduces.liftVal
  match c with
  | ⟨0, _⟩ => simp
  | ⟨1, _⟩ => simp

/-- A host-side maximum over the rows (a one-operand reduce with `max` over axis 0) at column `p`: the fold of `max`
    over the column's entries from the initial value. -/
theorem hostColMax {R D : ℕ} (U : FVec Ideal ⟨2, ![R, D]⟩ .f32) {u : Shape} (init : u.Idx → Ideal .f32)
    (h' : (⟨2, ![R, D]⟩ : Shape).ReducesTo [0] ⟨1, ![D]⟩) (h : (⟨2, ![R, D]⟩ : Shape).Reduces [0] ⟨1, ![D]⟩)
    (hu : 0 < u.numel) (p : Fin D) :
    Host.reduce (FloatOps.maximumf (F := Ideal) (φ := .f32)) U init h' hu (ix1 p)
      = (Finset.univ : Finset (Fin R)).fold max (init (Shape.Idx.first hu)) (fun k => U (ix2 k p)) := by
  rw [Host.reduce_eq_fold_single _ _ _ _ h]
  exact congrArg (Finset.fold max _ · _) (funext fun k => congrArg U (lift_ix1_rows h p k))

/-! ## The three sums of products -/

variable (x0 : (⟨S512x256, .f32⟩ : BufTy).Contents (Elt Ideal)) (x2 : (⟨S65536x256, .f32⟩ : BufTy).Contents (Elt Ideal))

/-- The squared norm of memory row `r`, as the reference broadcasts it over the queries. -/
theorem v9_at (r : Fin 65536) (b : Fin 512) :
    val_main_v9 (F := Ideal) x2 (ix2 r b) = ∑ k : Fin 256, x2 (ix2 r k) * x2 (ix2 r k) := by
  have e : ∀ k : Fin 256, idx_main_v1 (idx_main_v2 (idx_main_v9 (ix2 r b))) k = ix2 r k := fun k =>
    funext fun a => Fin.ext (by match a with | ⟨0, _⟩ => rfl | ⟨1, _⟩ => rfl)
  rw [val_main_v9_apply, val_main_v2_apply, val_main_v1_apply, val_main_cst_apply]
  simp only [e, val_main_v0_apply, Ideal.ofBits_def, Ideal.ofBits_zero_f32, Ideal.mulf_def, zero_add]

/-- The squared norm of query `b`, as the reference broadcasts it over the memory rows. -/
theorem v11_at (r : Fin 65536) (b : Fin 512) :
    val_main_v11 (F := Ideal) x0 (ix2 r b) = ∑ k : Fin 256, x0 (ix2 b k) * x0 (ix2 b k) := by
  have e : ∀ k : Fin 256, idx_main_v4 (idx_main_v5 (idx_main_v11 (ix2 r b))) k = ix2 b k := fun k =>
    funext fun a => Fin.ext (by match a with | ⟨0, _⟩ => rfl | ⟨1, _⟩ => rfl)
  rw [val_main_v11_apply, val_main_v5_apply, val_main_v4_apply, val_main_cst_0_apply]
  simp only [e, val_main_v3_apply, Ideal.ofBits_def, Ideal.ofBits_zero_f32, Ideal.mulf_def, zero_add]

/-- The inner product of memory row `r` and query `b`. -/
theorem v6_at (r : Fin 65536) (b : Fin 512) :
    val_main_v6 (F := Ideal) x0 x2 (ix2 r b) = ∑ k : Fin 256, x2 (ix2 r k) * x0 (ix2 b k) := by
  have el : ∀ k : Fin 256, lidx_main_v6 (ix2 r b) k = ix2 r k := fun k =>
    funext fun a => Fin.ext (by match a with | ⟨0, _⟩ => rfl | ⟨1, _⟩ => rfl)
  have er : ∀ k : Fin 256, ridx_main_v6 (ix2 r b) k = ix2 b k := fun k =>
    funext fun a => Fin.ext (by match a with | ⟨0, _⟩ => rfl | ⟨1, _⟩ => rfl)
  rw [val_main_v6_apply]
  simp only [el, er]

/-- The logit of memory row `r` for query `b` as the reference forms it. -/
theorem v14_at (r : Fin 65536) (b : Fin 512) :
    val_main_v14 (F := Ideal) x0 x2 (ix2 r b)
      = Ideal.ofBits .f32 0xBF000000#32
          * (((∑ k : Fin 256, x2 (ix2 r k) * x2 (ix2 r k))
              - Ideal.ofBits .f32 0x40000000#32 * (∑ k : Fin 256, x2 (ix2 r k) * x0 (ix2 b k)))
            + ∑ k : Fin 256, x0 (ix2 b k) * x0 (ix2 b k)) := by
  rw [val_main_v14_apply, val_main_v13_apply, val_main_cst_2_apply, val_main_v12_apply, val_main_v10_apply,
    val_main_v8_apply, val_main_v7_apply, val_main_cst_1_apply, v9_at, v11_at, v6_at]
  simp only [Ideal.ofBits_def, Ideal.mulf_def, Ideal.addf_def, Ideal.subf_def]

/-! ## The reference value of a query, the weights and their sum, and the contraction -/

/-- The value the reference subtracts from the logits of query `b`: the maximum, started at the literal −∞, of the
    query's logits over the memory rows (once more against the literal −∞). -/
theorem v17_at (b : Fin 512) :
    val_main_v17 (F := Ideal) x0 x2 (ix1 b)
      = max (Ideal.ofBits .f32 0xFF800000#32)
          ((Finset.univ : Finset (Fin 65536)).fold max (Ideal.ofBits .f32 0xFF800000#32)
            (fun r => val_main_v14 (F := Ideal) x0 x2 (ix2 r b))) := by
  rw [val_main_v17_apply, val_main_v16_apply, val_main_cst_4_apply]
  unfold val_main_v15
  generalize val_main_v14 (F := Ideal) x0 x2 = y
  rw [hostColMax y _ _ (by decide) _ b]
  rfl

/-- That value, broadcast over the memory rows. -/
theorem v19_at (r : Fin 65536) (b : Fin 512) :
    val_main_v19 (F := Ideal) x0 x2 (ix2 r b) = val_main_v17 (F := Ideal) x0 x2 (ix1 b) := by
  have e : idx_main_v18 (idx_main_v19 (ix2 r b)) = ix1 b :=
    funext fun a => Fin.ext (by match a with | ⟨0, _⟩ => rfl)
  rw [val_main_v19_apply, val_main_v18_apply, e]

/-- The unnormalised weight of memory row `r` for query `b`. -/
theorem v21_at (r : Fin 65536) (b : Fin 512) :
    val_main_v21 (F := Ideal) x0 x2 (ix2 r b)
      = Ideal.exp (val_main_v14 (F := Ideal) x0 x2 (ix2 r b) - val_main_v17 (F := Ideal) x0 x2 (ix1 b)) := by
  rw [val_main_v21_apply, val_main_v20_apply, v19_at]
  simp only [Ideal.hostUnary_exp_def, Ideal.subf_def]

/-- The sum of the unnormalised weights of query `b` over the memory rows. -/
theorem v22_at (b : Fin 512) :
    val_main_v22 (F := Ideal) x0 x2 (ix1 b) = ∑ r : Fin 65536, val_main_v21 (F := Ideal) x0 x2 (ix2 r b) := by
  have e : ∀ r : Fin 65536, idx_main_v22 (ix1 b) r = ix2 r b := fun r =>
    funext fun a => Fin.ext (by match a with | ⟨0, _⟩ => rfl | ⟨1, _⟩ => rfl)
  rw [val_main_v22_apply, val_main_cst_5_apply]
  simp only [e, Ideal.ofBits_def, Ideal.ofBits_zero_f32, zero_add]

/-- That sum, broadcast over the memory rows. -/
theorem v24_at (r : Fin 65536) (b : Fin 512) :
    val_main_v24 (F := Ideal) x0 x2 (ix2 r b) = val_main_v22 (F := Ideal) x0 x2 (ix1 b) := by
  have e : idx_main_v23 (idx_main_v24 (ix2 r b)) = ix1 b :=
    funext fun a => Fin.ext (by match a with | ⟨0, _⟩ => rfl)
  rw [val_main_v24_apply, val_main_v23_apply, e]

/-- The contraction of the normalised weights of query `b` with column `d` of the memory bank. -/
theorem v26_at (b : Fin 512) (d : Fin 256) :
    val_main_v26 (F := Ideal) x0 x2 (ix2 b d)
      = ∑ r : Fin 65536, Ideal.div (val_main_v21 (F := Ideal) x0 x2 (ix2 r b)) (val_main_v22 (F := Ideal) x0 x2 (ix1 b))
          * x2 (ix2 r d) := by
  have el : ∀ r : Fin 65536, lidx_main_v26 (ix2 b d) r = ix2 r b := fun r =>
    funext fun a => Fin.ext (by match a with | ⟨0, _⟩ => rfl | ⟨1, _⟩ => rfl)
  have er : ∀ r : Fin 65536, ridx_main_v26 (ix2 b d) r = ix2 r d := fun r =>
    funext fun a => Fin.ext (by match a with | ⟨0, _⟩ => rfl | ⟨1, _⟩ => rfl)
  rw [val_main_v26_apply]
  simp only [el, er, val_main_v25_apply, v24_at, Ideal.hostDivf_def]

end Cert.Mhn.Ref

end
-- ==== Proof.RefRetrieved.lean ====
/-
  The reference program computes the specification.

  On arrays whose entries are real numbers every array of the reference has real entries: the logit of memory row r
  for query b is  score b r − ½‖v_b‖²; the maximum M_b of a query's logits is a real number; the weights are
  exp(logit − M_b) / Σ_r exp(logit − M_b), a quotient by a positive real; and their contraction with the memory rows
  is the softmax-weighted mean of the specification, because the common factor exp(−½‖v_b‖² − M_b) leaves numerator
  and denominator together. The last five operations of the reference are the blend of the specification.
-/
import proofs.«126192_j2147483648713_2_alg».proof.Proof.RefRead

noncomputable section

namespace Cert.Mhn.Ref

open Idealize.ShloMosaic Idealize.ShloMosaic.ValueIdx Cert.ReferenceIdeal Cert.ReferenceIdeal.Read
open scoped BigOperators

/-- The logit of memory row `r` for query `b` with the query's own squared norm: −½‖mem_r − v_b‖². -/
def logit (v : Fin 512 → Fin 256 → ℝ) (mem : Fin 65536 → Fin 256 → ℝ) (b : Fin 512) (r : Fin 65536) : ℝ :=
  score v mem b r - (1 / 2) * ∑ k, v b k * v b k

variable (x0 : (⟨S512x256, .f32⟩ : BufTy).Contents (Elt Ideal)) (x2 : (⟨S65536x256, .f32⟩ : BufTy).Contents (Elt Ideal))
  (h0 : ∀ i, ∃ a : ℝ, x0 i = (a : EReal)) (h2 : ∀ i, ∃ a : ℝ, x2 i = (a : EReal))

include h0 h2

/-- On real entries the reference's logit is the real logit. -/
theorem v14_real (r : Fin 65536) (b : Fin 512) :
    val_main_v14 (F := Ideal) x0 x2 (ix2 r b) = ((logit (realPart x0) (realPart x2) b r : ℝ) : EReal) := by
  rw [v14_at, Consts.ofBits_neg_half, Consts.ofBits_two]
  simp only [← coe_realPart x0 h0, ← coe_realPart x2 h2]
  simp only [← EReal.coe_mul, ← Cert.RealSums.coe_sum, ← EReal.coe_sub, ← EReal.coe_add]
  congr 1
  unfold logit score
  rw [Finset.sum_congr rfl fun k _ => mul_comm (realPart x2 r k) (realPart x0 b k)]
  ring

/-- The value subtracted from the logits of a query is a real number. -/
theorem v17_real (b : Fin 512) : ∃ M : ℝ, val_main_v17 (F := Ideal) x0 x2 (ix1 b) = (M : EReal) := by
  obtain ⟨M, hM⟩ := fold_max_real (Finset.univ : Finset (Fin 65536)) Finset.univ_nonempty
    (fun r => logit (realPart x0) (realPart x2) b r)
  refine ⟨M, ?_⟩
  rw [v17_at, Consts.ofBits_neg_inf]
  simp only [v14_real x0 x2 h0 h2]
  rw [hM]
  exact max_bot_left _

/-- The reference's contraction of the normalised weights with the memory bank is the retrieved vector. -/
theorem v26_real (b : Fin 512) (d : Fin 256) :
    val_main_v26 (F := Ideal) x0 x2 (ix2 b d) = ((retrieved (realPart x0) (realPart x2) b d : ℝ) : EReal) := by
  obtain ⟨M, hM⟩ := v17_real x0 x2 h0 h2 b
  have h21 : ∀ r : Fin 65536, val_main_v21 (F := Ideal) x0 x2 (ix2 r b)
      = ((Real.exp (logit (realPart x0) (realPart x2) b r - M) : ℝ) : EReal) := by
    intro r
    rw [v21_at, v14_real x0 x2 h0 h2, hM, ← EReal.coe_sub, Ideal.exp_coe]
  have h22 : val_main_v22 (F := Ideal) x0 x2 (ix1 b)
      = ((∑ r : Fin 65536, Real.exp (logit (realPart x0) (realPart x2) b r - M) : ℝ) : EReal) := by
    rw [v22_at, Cert.RealSums.coe_sum]
    exact Finset.sum_congr rfl fun r _ => h21 r
  have hpos : 0 < ∑ r : Fin 65536, Real.exp (logit (realPart x0) (realPart x2) b r - M) := sum_exp_pos _
  rw [v26_at, h22]
  simp only [h21, Ideal.div_coe hpos.ne', ← coe_realPart x2 h2, ← EReal.coe_mul, ← Cert.RealSums.coe_sum]
  rw [EReal.coe_eq_coe_iff]
  have hc : ∀ r : Fin 65536, logit (realPart x0) (realPart x2) b r - M
      = score (realPart x0) (realPart x2) b r + (-(1 / 2) * (∑ k, realPart x0 b k * realPart x0 b k) - M) :=
    fun r => by unfold logit; ring
  simp only [hc]
  unfold retrieved
  exact ratio_shift _ _ _ (sum_exp_pos _).ne'

omit h0 h2

/-- The last five operations of the reference are the blend of the specification applied to the contraction. -/
theorem v31_eq_blend (h : (⟨0, ![]⟩ : Shape).BroadcastsInDim ⟨2, ![512, 256]⟩ (![] : Fin 0 → Fin 2))
    (x1 : (⟨S512x256, .f32⟩ : BufTy).Contents (Elt Ideal)) :
    val_main_v31 (F := Ideal) x0 x1 x2 = blend h (val_main_v26 (F := Ideal) x0 x2) x0 x1 := by
  unfold val_main_v31 val_main_v30 val_main_v29 val_main_v28 val_main_v27 val_main_cst_6 blend
  rfl

end Cert.Mhn.Ref

/-- On inputs with real entries the reference program's result is the specification. -/
theorem Cert.Mhn.Ref.val_eq_result
    (h : (⟨0, ![]⟩ : Idealize.ShloMosaic.Shape).BroadcastsInDim ⟨2, ![512, 256]⟩ (![] : Fin 0 → Fin 2))
    (x0 x1 : (⟨Cert.ReferenceIdeal.S512x256, .f32⟩ : Idealize.ShloMosaic.BufTy).Contents (Idealize.ShloMosaic.Elt Idealize.ShloMosaic.Ideal))
    (x2 : (⟨Cert.ReferenceIdeal.S65536x256, .f32⟩ : Idealize.ShloMosaic.BufTy).Contents (Idealize.ShloMosaic.Elt Idealize.ShloMosaic.Ideal))
    (h0 : ∀ i, ∃ a : ℝ, x0 i = (a : EReal)) (h2 : ∀ i, ∃ a : ℝ, x2 i = (a : EReal)) :
    Cert.ReferenceIdeal.Read.val_main_v31 (F := Idealize.ShloMosaic.Ideal) x0 x1 x2 = Cert.Mhn.result h x0 x1 x2 := by
  have e : Cert.ReferenceIdeal.Read.val_main_v26 (F := Idealize.ShloMosaic.Ideal) x0 x2 = Cert.Mhn.retrievedArr x0 x2 :=
    funext fun i => by
      rw [Idealize.ShloMosaic.ValueIdx.eq_ix2 i]
      exact Cert.Mhn.Ref.v26_real x0 x2 h0 h2 (i 0) (i 1)
  rw [Cert.Mhn.Ref.v31_eq_blend x0 x2 h x1, e]
  rfl

end
-- ==== Proof.Finite.lean ====
/-
  Finiteness of the inputs, read out of the precondition.

  The precondition tests, for each of the three input arrays, that the absolute value of every entry lies strictly
  below plus infinity, folds each test with "and" into one bit, and joins the three bits with "and". If the joined
  bit is one, each of the three bits is one, hence every single comparison is one. On the extended reals the
  absolute value of x is max x (-x); it is plus infinity at both infinite points, so a strict bound by plus
  infinity leaves only the points that are real numbers.
-/
import proofs.«126192_j2147483648713_2_alg».proof.Pre_finite_inputs
import Idealize.ShloMosaic.PureOps.Ideal
import Idealize.ShloMosaic.Lib.ValueIdx
import Idealize.ShloMosaic.Lib.ReduceAll

noncomputable section

namespace Cert.Mhn

open Idealize.ShloMosaic Idealize.ShloMosaic.ValueIdx

/-- An extended real whose absolute value lies strictly below plus infinity is a real number. -/
theorem exists_real_of_abs_lt_top (x : EReal) (h : max x (-x) < ⊤) : ∃ a : ℝ, x = (a : EReal) := by
  induction x using EReal.rec with
  | bot => simp at h
  | coe a => exact ⟨a, rfl⟩
  | top => simp at h

/-- The bit pattern of plus infinity denotes the top of the extended reals. -/
theorem ofBits_pos_inf : Ideal.ofBits .f32 0x7F800000#32 = ⊤ := by
  simp [Ideal.ofBits, Ideal.ieee]

/-- One entry's test: if "|x| < +inf" evaluates to the bit one, then x is a real number. -/
theorem exists_real_of_test (x : Ideal .f32)
    (h : FloatOps.cmpf (F := Ideal) .olt (FloatOps.hostAbsf x) (FloatOps.ofBits .f32 0x7F800000#32) = 1#1) :
    ∃ a : ℝ, x = (a : EReal) := by
  apply exists_real_of_abs_lt_top
  have h' : Ideal.cmp .olt (max x (-x)) (Ideal.ofBits .f32 0x7F800000#32) = 1#1 := h
  rw [ofBits_pos_inf] at h'
  by_contra hn
  simp [Ideal.cmp, hn] at h'

/-- The shape with no axes has exactly one index. -/
instance subsingleton_scalar_idx : Subsingleton Cert.Pre_finite_inputs.S_.Idx :=
  ⟨fun a b => funext fun d => d.elim0⟩

theorem finite_of_pre [Cert.Pre_finite_inputs.Facts]
    (x0 x1 : FVec Ideal Cert.Pre_finite_inputs.S512x256 .f32) (x2 : FVec Ideal Cert.Pre_finite_inputs.S65536x256 .f32)
    (h : Cert.Pre_finite_inputs.fn (F := Ideal) x0 x1 x2 = (fun _ => 1#1)) :
    (∀ i, ∃ a : ℝ, x0 i = (a : EReal)) ∧ (∀ i, ∃ a : ℝ, x1 i = (a : EReal)) ∧ (∀ i, ∃ a : ℝ, x2 i = (a : EReal)) := by
  have h0 := congrFun h ValueIdx.ix0
  dsimp only [Cert.Pre_finite_inputs.fn] at h0
  obtain ⟨h01, h2⟩ := IntOp.andi_eq_one.1 h0
  obtain ⟨h0', h1'⟩ := IntOp.andi_eq_one.1 h01
  refine ⟨fun i => ?_, fun i => ?_, fun i => ?_⟩
  · exact exists_real_of_test (x0 i) (Host.reduce_andi_all _ _ _ _ _ h0' i)
  · exact exists_real_of_test (x1 i) (Host.reduce_andi_all _ _ _ _ _ h1' i)
  · exact exists_real_of_test (x2 i) (Host.reduce_andi_all _ _ _ _ _ h2 i)

end Cert.Mhn

end
-- ==== Proof.lean ====
/-
  The kernel retrieves, for each of 512 queries, the softmax-weighted mean of 65536 memory rows under the logits
  −½‖mem_r − v_b‖², and moves the query half of the way towards it under a mask. It never forms the softmax whole: it
  drops the query's own −½‖v_b‖² from the logits, sweeps the bank in tiles of 2048 rows on two cores with a running
  reference value, weight sum and weighted sum (rescaled by exp(m_old − m_new) at every tile), and merges the two cores'
  partial states on the host before dividing. The reference forms the logits in full, subtracts their maximum,
  normalises and contracts.

  Over the extended reals with finite inputs both are one function (Spec.lean): a softmax-weighted mean is a ratio that
  no common positive factor of the weights changes, so neither the dropped per-query term nor any choice of reference
  value — the running ones, the merged one, the reference's maximum — matters, and the tiled sums are the whole sum.
  The kernel side is KernelPieces (what a grid point stores), KernelPay (that arithmetic entry by entry), KernelState
  (the invariant across the grid), KernelArrays (the three output arrays) and KernelTail (the host's merge and the
  run); the reference side is RefRead / RefRetrieved over RefMath; RunningSoftmax is the mathematics of the tiled
  accumulation and Finite reads finiteness off the precondition. The idealization rewrote nothing, so `preserves` is
  trivial; the three frames are the generated ones.
-/
import proofs.«126192_j2147483648713_2_alg».proof.Defs
import proofs.«126192_j2147483648713_2_alg».proof.Proof.Gen.Kernel
import proofs.«126192_j2147483648713_2_alg».proof.Proof.Gen.Kernel.Skeleton
import proofs.«126192_j2147483648713_2_alg».proof.Proof.Gen.Kernel.Launch
import proofs.«126192_j2147483648713_2_alg».proof.Proof.Gen.Kernel.Points
import proofs.«126192_j2147483648713_2_alg».proof.Proof.Gen.Kernel.Frame
import proofs.«126192_j2147483648713_2_alg».proof.Proof.Gen.KernelIdeal
import proofs.«126192_j2147483648713_2_alg».proof.Proof.Gen.KernelIdeal.Skeleton
import proofs.«126192_j2147483648713_2_alg».proof.Proof.Gen.KernelIdeal.Launch
import proofs.«126192_j2147483648713_2_alg».proof.Proof.Gen.KernelIdeal.Points
import proofs.«126192_j2147483648713_2_alg».proof.Proof.Gen.KernelIdeal.Frame
import proofs.«126192_j2147483648713_2_alg».proof.Proof.Gen.ReferenceIdeal
import proofs.«126192_j2147483648713_2_alg».proof.Proof.Gen.Pre_finite_inputs
import proofs.«126192_j2147483648713_2_alg».proof.Proof.Gen.ReferenceIdeal.Read
import proofs.«126192_j2147483648713_2_alg».proof.Proof.KernelTail
import proofs.«126192_j2147483648713_2_alg».proof.Proof.RefRetrieved
import proofs.«126192_j2147483648713_2_alg».proof.Proof.Finite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs, run from memories that agree on the three arguments, end with the specification's result of
    those arguments: the precondition makes the queries and the memory bank finite, which is all the two sides need. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Mhn.finite_of_pre _ _ _ (hpre c)
  refine ⟨fun c => Cert.Mhn.result Cert.KernelIdeal.Facts₀.bcast_S_S512x256
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tail.run m ρ (fun c => (hfin c).1) (fun c => (hfin c).2.2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq, (hagree c).1, (hagree c).2.1, (hagree c).2.2]
  exact Cert.Mhn.Ref.val_eq_result _ _ _ _ (hfin c).1 (hfin c).2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
